-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S16x256 : Shape := ⟨2, ![16, 256]⟩
abbrev S272x1 : Shape := ⟨2, ![272, 1]⟩
abbrev S1 : Shape := ⟨1, ![1]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S16x256 : S_.BroadcastsInDim S16x256 (![] : Fin 0 → Fin S16x256.rank)
  reducesTo_S16x256_S_d0_1 : S16x256.ReducesTo [0, 1] S_
  bcast_S_S272x1 : S_.BroadcastsInDim S272x1 (![] : Fin 0 → Fin S272x1.rank)
  reducesTo_S272x1_S_d0_1 : S272x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1024x16 .f32) (main_arg1 : FVec F S16x256 .f32) (main_arg2 : FVec F S272x1 .f32) (main_arg3 : FVec F S1 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S272x1 .f32 := Host.absf main_arg2
  let main_cst_2 : FVec F S_ .f32 := constant S_ .f32 0x7F800000#32
  let main_v10 : FVec F S272x1 .f32 := broadcastInDim S272x1 ![] bcast_S_S272x1 main_cst_2
  let main_v11 : IVec S272x1 1 := cmpf .olt main_v9 main_v10
  let main_c_3 : IVec S_ 1 := constantI S_ 1 1#1
  let main_v12 : IVec S_ 1 := (fun x v => Host.reduce IntOp.andi x v reducesTo_S272x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1024x16 : Shape := ⟨2, ![1024, 16]⟩
abbrev S16x256 : Shape := ⟨2, ![16, 256]⟩
abbrev S272x1 : Shape := ⟨2, ![272, 1]⟩
abbrev S1 : Shape := ⟨1, ![1]⟩
abbrev S1024x256 : Shape := ⟨2, ![1024, 256]⟩
abbrev S16x1 : Shape := ⟨2, ![16, 1]⟩
abbrev S1x16 : Shape := ⟨2, ![1, 16]⟩
abbrev S256x1 : Shape := ⟨2, ![256, 1]⟩
abbrev S1x256 : Shape := ⟨2, ![1, 256]⟩
abbrev S1x1 : Shape := ⟨2, ![1, 1]⟩
abbrev S1024x1 : Shape := ⟨2, ![1024, 1]⟩
abbrev S128x256 : Shape := ⟨2, ![128, 256]⟩
abbrev S128x16 : Shape := ⟨2, ![128, 16]⟩
abbrev S128x1 : Shape := ⟨2, ![128, 1]⟩
abbrev S128x1x256 : Shape := ⟨3, ![128, 1, 256]⟩
abbrev S1x16x256 : Shape := ⟨3, ![1, 16, 256]⟩
abbrev S128x16x256 : Shape := ⟨3, ![128, 16, 256]⟩
abbrev S128 : Shape := ⟨1, ![128]⟩

abbrev nBuf : Space → Nat
  | .hbm => 11
  | .vmem => 14
  | .smem => 0
  | _ => 0

abbrev bufTy : (tb : Table) → Fin (tcTables nBuf tb) → BufTy
  | .hbm, ⟨0, _⟩ => ⟨S1024x16, .f32⟩
  | .hbm, ⟨1, _⟩ => ⟨S16x256, .f32⟩
  | .hbm, ⟨2, _⟩ => ⟨S272x1, .f32⟩
  | .hbm, ⟨3, _⟩ => ⟨S1, .f32⟩
  | .hbm, ⟨4, _⟩ => ⟨S1024x256, .f32⟩
  | .hbm, ⟨5, _⟩ => ⟨S16x1, .f32⟩
  | .hbm, ⟨6, _⟩ => ⟨S1x16, .f32⟩
  | .hbm, ⟨7, _⟩ => ⟨S256x1, .f32⟩
  | .hbm, ⟨8, _⟩ => ⟨S1x256, .f32⟩
  | .hbm, ⟨9, _⟩ => ⟨S1x1, .f32⟩
  | .hbm, ⟨10, _⟩ => ⟨S1024x1, .f32⟩
  | .local _ .vmem, ⟨0, _⟩ => ⟨S1024x16, .f32⟩
  | .local _ .vmem, ⟨1, _⟩ => ⟨S16x256, .f32⟩
  | .local _ .vmem, ⟨2, _⟩ => ⟨S1024x256, .f32⟩
  | .local _ .vmem, ⟨3, _⟩ => ⟨S128x256, .f32⟩
  | .local _ .vmem, ⟨4, _⟩ => ⟨S128x256, .f32⟩
  | .local _ .vmem, ⟨5, _⟩ => ⟨S1024x256, .f32⟩
  | .local _ .vmem, ⟨6, _⟩ => ⟨S128x16, .f32⟩
  | .local _ .vmem, ⟨7, _⟩ => ⟨S128x16, .f32⟩
  | .local _ .vmem, ⟨8, _⟩ => ⟨S1x16, .f32⟩
  | .local _ .vmem, ⟨9, _⟩ => ⟨S1x256, .f32⟩
  | .local _ .vmem, ⟨10, _⟩ => ⟨S1x1, .f32⟩
  | .local _ .vmem, ⟨11, _⟩ => ⟨S128x1, .f32⟩
  | .local _ .vmem, ⟨12, _⟩ => ⟨S128x1, .f32⟩
  | .local _ .vmem, ⟨13, _⟩ => ⟨S128x256, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

@[reducible] def k1_t1_loop : Scf.Loop 32 :=
  let c0_i32 : BitVec 32 := 0#32
  let c64_i32 : BitVec 32 := 64#32
  let v6 : BitVec 32 := Scalar.addi c0_i32 c64_i32
  let c1_i32 : BitVec 32 := 1#32
  ⟨c0_i32, v6, c1_i32⟩
def k1_mult1 (k1_t1 : Fin k1_t1_loop.trips) : BitVec 32 :=
  let c0_i32_19 : BitVec 32 := 0#32
  let c0_i32 : BitVec 32 := 0#32
  let c1_i32 : BitVec 32 := 1#32
  let arg9 : BitVec 32 := Scf.iv c0_i32 c1_i32 k1_t1
  let c1_i32_18 : BitVec 32 := 1#32
  let v28 : BitVec 32 := Scalar.muli arg9 c1_i32_18
  let v29 : BitVec 32 := Scalar.addi c0_i32_19 v28
  let c16_i32 : BitVec 32 := 16#32
  let v30 : BitVec 32 := Scalar.muli v29 c16_i32
  v30
def k1_off1 (k1_t1 : Fin k1_t1_loop.trips) : Fin 2 → Nat :=
  let c0_i32_19 : BitVec 32 := 0#32
  let c0_i32 : BitVec 32 := 0#32
  let c1_i32 : BitVec 32 := 1#32
  let arg9 : BitVec 32 := Scf.iv c0_i32 c1_i32 k1_t1
  let c1_i32_18 : BitVec 32 := 1#32
  let v28 : BitVec 32 := Scalar.muli arg9 c1_i32_18
  let v29 : BitVec 32 := Scalar.addi c0_i32_19 v28
  let c16_i32 : BitVec 32 := 16#32
  let v30 : BitVec 32 := Scalar.muli v29 c16_i32
  let v31 : BitVec 32 := v30
  let v32 : Index := Scalar.indexCast v31
  let c0_20 : Index := 0#32
  ![v32.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  inb_S1024x256_S1024x256_0_0 : ∀ a, (![0, 0] : Fin 2 → Nat) a + S1024x256.size a ≤ S1024x256.size a
  h_S1024x256 : 0 < S1024x256.numel
  slices_S272x1_S16x1_0_0 : S272x1.Slices ![0, 0] S16x1
  shapeCasts_S16x1_S1x16 : S16x1.ShapeCasts S1x16
  slices_S272x1_S256x1_16_0 : S272x1.Slices ![16, 0] S256x1
  shapeCasts_S256x1_S1x256 : S256x1.ShapeCasts S1x256
  shapeCasts_S1_S1x1 : S1.ShapeCasts S1x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S16x256_S16x256 : S16x256.ShapeCasts S16x256
  shapeCasts_S128x256_S128x1x256 : S128x256.ShapeCasts S128x1x256
  shapeCasts_S16x256_S1x16x256 : S16x256.ShapeCasts S1x16x256
  broadcasts_S128x1x256_S128x16x256 : S128x1x256.Broadcasts S128x16x256
  broadcasts_S1x16x256_S128x16x256 : S1x16x256.Broadcasts S128x16x256
  reduces_S128x16x256_S128x256 : S128x16x256.Reduces [1] S128x256
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  reduces_S128x16_S128 : S128x16.Reduces [1] S128
  shapeCasts_S128_S128x1 : S128.ShapeCasts S128x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  reduces_S128x256_S128 : S128x256.Reduces [1] S128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S1024x16_S16x256_S1024x256_1_0_0_1_n_n_wf : DotDims.WF S1024x16 S16x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S1024x16.size a
  hwx0_0 : ∀ i : grid0.Coords, EltTy.bits .f32 = 32 ∨ (Rect.block (s := S1024x16) S1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hrank1 : 0 < grid1.rank
  k1_t1_ok : k1_t1_loop.OK
  k1_mult1_dvd : ∀ k1_t1 : Fin k1_t1_loop.trips, 16 ∣ (k1_mult1 k1_t1).toNat
  k1_off1_inb : ∀ k1_t1 : Fin k1_t1_loop.trips, ∀ a, (k1_off1 k1_t1) a + S16x256.size a ≤ S1024x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S1024x256.size a
  hwx1_0 : ∀ i : grid1.Coords, EltTy.bits .f32 = 32 ∨ (Rect.block (s := S1024x256) S128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S1024x16.size a
  hwx1_2 : ∀ i : grid1.Coords, EltTy.bits .f32 = 32 ∨ (Rect.block (s := S1024x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S1024x1.size a
  hwx1_6 : ∀ i : grid1.Coords, EltTy.bits .f32 = 32 ∨ (Rect.block (s := S1024x1) S128x1.size (cc1_transform_6 i) (hinb1_6 i)).WholeWords (EltTy.packing .f32)

variable [Facts₀]

def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf

abbrev win0_0 : Pipeline.Window sig grid0 :=
  Pipeline.Window.ofSpec (Memref.whole main_arg0) S1024x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S128x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S128x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x16 : Shape := ⟨2, ![1024, 16]⟩
abbrev S16x256 : Shape := ⟨2, ![16, 256]⟩
abbrev S272x1 : Shape := ⟨2, ![272, 1]⟩
abbrev S1 : Shape := ⟨1, ![1]⟩
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x272 : Shape := ⟨2, ![1024, 272]⟩
abbrev S1024x1 : Shape := ⟨2, ![1024, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S16x256, .f32⟩
  | .hbm, ⟨2, _⟩ => ⟨S272x1, .f32⟩
  | .hbm, ⟨3, _⟩ => ⟨S1, .f32⟩
  | .hbm, ⟨4, _⟩ => ⟨S1024x256, .f32⟩
  | .hbm, ⟨5, _⟩ => ⟨S1024x1x256, .f32⟩
  | .hbm, ⟨6, _⟩ => ⟨S1x1024x256, .f32⟩
  | .hbm, ⟨7, _⟩ => ⟨S1024x1024x256, .f32⟩
  | .hbm, ⟨8, _⟩ => ⟨S1024x1024x256, .f32⟩
  | .hbm, ⟨9, _⟩ => ⟨S1024x1024x256, .f32⟩
  | .hbm, ⟨10, _⟩ => ⟨S1024x1024x256, .f32⟩
  | .hbm, ⟨11, _⟩ => ⟨S1024x1024x256, .f32⟩
  | .hbm, ⟨12, _⟩ => ⟨S1024x1024x256, .f32⟩
  | .hbm, ⟨13, _⟩ => ⟨S_, .f32⟩
  | .hbm, ⟨14, _⟩ => ⟨S1024x256, .f32⟩
  | .hbm, ⟨15, _⟩ => ⟨S1024x272, .f32⟩
  | .hbm, ⟨16, _⟩ => ⟨S1024x1, .f32⟩
  | .hbm, ⟨17, _⟩ => ⟨S1x1, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S_, .f32⟩
  | .hbm, ⟨26, _⟩ => ⟨S1024x1, .f32⟩
  | .hbm, ⟨27, _⟩ => ⟨S1024x1, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x256_d1 : S1024x1024x256.ReducesTo [1] S1024x256
  h_S_ : 0 < S_.numel
  concatenates_S1024x16_S1024x256_S1024x272_d1 : Shape.Concatenates [S1024x16, S1024x256] S1024x272 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  dot_S1024x16_S16x256_S1024x256_1_0_0_1_n_n_wf : DotDims.WF S1024x16 S16x256 S1024x256 [1] [0] [0] [1] [] []
  dot_S1024x272_S272x1_S1024x1_1_0_0_1_n_n_wf : DotDims.WF S1024x272 S272x1 S1024x1 [1] [0] [0] [1] [] []

variable [Facts₀]

def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S1024x272_S272x1_S1024x1_1_0_0_1_n_n : DotDims S1024x272 S272x1 S1024x1 where
  lhsContracting := [1]
  rhsContracting := [0]
  lhsNonContracting := [0]
  rhsNonContracting := [1]
  lhsBatch := []
  rhsBatch := []
  wf := dot_S1024x272_S272x1_S1024x1_1_0_0_1_n_n_wf

class Facts : Prop extends Facts₀ where

variable [Facts]
-- ==== Proof.BitsProjRegion.lean ====
/-
  The first kernel region: the projection P = x · T, one grid point, both operands and the result whole blocks.
  The body loads the two operand blocks, forms their matrix product into a zero accumulator (the operands pass
  through a narrower float format on the way, which changes nothing at the exact instance and is part of the
  payload at the word-level one) and stores it over the whole result block. Stated here, for any float instance:
  what the result block holds after the body as a function of the two operand blocks, the body's triple, and the
  region's proof data with its body obligation.
-/
import proofs.«121339_j56934086476615_2_alg».proof.Proof.Gen.Kernel.Launch
import proofs.«121339_j56934086476615_2_alg».proof.Proof.Gen.Kernel.Skeleton
import proofs.«121339_j56934086476615_2_alg».proof.Proof.Gen.Kernel.Points
import proofs.«121339_j56934086476615_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, instantiated by the run
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at the one point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole blocks the body reads and writes. -/
abbrev rX : Rect S1024x16 := Rect.unit (s := S1024x16) ![0, 0] S1024x16.size inb_S1024x16_S1024x16_0_0
abbrev rT : Rect S16x256 := Rect.unit (s := S16x256) ![0, 0] S16x256.size inb_S16x256_S16x256_0_0
abbrev rP : Rect S1024x256 := Rect.unit (s := S1024x256) ![0, 0] S1024x256.size inb_S1024x256_S1024x256_0_0

/-- The result block after the body: the product payload of the two operand blocks, stored whole. -/
def projOut (x0 : Vec F S1024x16 .f32) (x1 : Vec F S16x256 .f32) : Vec F S1024x256 .f32 :=
  View.canon [⟨rP, k0_pay1 (View.ld x0 rX) (View.ld x1 rT)⟩]

theorem projCover (p0 : Vec F S1024x256 .f32) (y : S1024x256.Idx) :
    ∃ pc ∈ ([⟨rP, p0⟩] : List (View.Piece (Elt F) S1024x256 .f32)), y ∈ pc.1.set :=
  View.cover_of_tiled [⟨rP, p0⟩] S1024x256.size (by rfl) y

set_option maxHeartbeats 1000000 in
/-- The body on whole staging memrefs: the operands' as found, the result's at anything, to the operands' unchanged and the
    result's at `projOut`. -/
theorem sound_proj (c : Dev nD) (E : Set ℕ) (i : grid0.Coords) (arg1 : Memref sig .tc .vmem S1024x16 .f32) (harg1 : arg1.IsWhole)
    (arg2 : Memref sig .tc .vmem S16x256 .f32) (harg2 : arg2.IsWhole) (arg3 : Memref sig .tc .vmem S1024x256 .f32) (harg3 : arg3.IsWhole)
    (x0 : Vec F S1024x16 .f32) (x1 : Vec F S16x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__ms_kernel i arg1 harg1 arg2 harg2 arg3 harg3) K := by
  simp only [cc0__ms_kernel_eq_skeleton]; unfold cc0__ms_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The region's proof data on core `c`: the arrays as found; after the body each operand's buffer at its block and the
    result's at `projOut` of the two blocks; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => projOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projOut (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.BitsPairRun.lean ====
/-
  The second kernel's body, run once on whole staging memrefs: the accumulator block is zero-filled, the 64 chunk
  trips each add their chunk's pair terms into it, and the logistic of the row's linear form is stored over the
  result block. What the result block and the accumulator block end with are found by the run itself.
-/
import proofs.«121339_j56934086476615_2_alg».proof.Proof.Gen.Kernel.Launch
import proofs.«121339_j56934086476615_2_alg».proof.Proof.Gen.Kernel.Skeleton
import proofs.«121339_j56934086476615_2_alg».proof.Proof.Gen.Kernel.Points
import proofs.«121339_j56934086476615_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: the six operand blocks as found and unchanged, the result block and the accumulator block at
    anything before, and after at the pieces the run finds (`L7` for the result, `LS` for the accumulator). -/
noncomputable def pairRun (c : Dev nD) (i : grid1.Coords) (arg1 : Memref sig .tc .vmem S128x256 .f32) (harg1 : arg1.IsWhole) (arg2 : Memref sig .tc .vmem S1024x256 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole)
    (x0 : Vec F S128x256 .f32) (x1 : Vec F S1024x256 .f32) (x2 : Vec F S128x16 .f32) (x3 : Vec F S1x16 .f32) (x4 : Vec F S1x256 .f32) (x5 : Vec F S1x1 .f32) :
    Σ' (L7 : List (View.Piece (Elt F) S128x1 .f32)), { LS : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS)) -∗ K ⟨⟩))
          ⊢ wp frame (wpE (defs₀ (F := F)) Variants.none c none) E (cc1__pairwise_kernel i arg1 harg1 arg2 harg2 arg3 harg3 arg4 harg4 arg5 harg5 arg6 harg6 arg7 harg7 arg8 harg8) K } := by
  refine ⟨?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    iexists _; iexact H8

end Cert.Kernel.Body

end
-- ==== Proof.BitsPairRegion.lean ====
/-
  The second kernel region: for each tile of 128 rows, the closeness features accumulated chunk by chunk against the
  whole projected minibatch, then the logistic of the rows' linear form. Eight grid points; the projected array is
  handed to the kernel twice (the tile's rows through one window, the whole array through another); the accumulator
  block is a scratch buffer, zero-filled at every point before anything reads it, so the region's invariant need
  not say what it holds between points. Stated here, for any float instance: the region's proof data (what each
  window's buffer holds after the body at each point) and its body obligation.
-/
import proofs.«121339_j56934086476615_2_alg».proof.Proof.BitsPairRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, whether fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The accumulator block as a memref. -/
abbrev accM : Memref sig .tc .vmem S128x256 .f32 := Memref.whole cc1_scratch0

/-- The region's invariant with the accumulator block owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ d, owns (c : Thread nD τ) accM fullShare d)) ∗ (∃ r, prngReg c r)) := by
  unfold Pipeline.ΦA; rw [scopedRest1_eq]; simp only [accM, owns_whole]; try rfl

/-- The body's run at point `t`, on the staging memrefs the pipeline calls it with and the windows' blocks there. -/
abbrev runAt (c : Dev nD) (t : Fin cfg1.N) :=
  pairRun (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) accM (Memref.isWhole_whole _) (iblk1 V c 0 t) (iblk1 V c 1 t) (iblk1 V c 2 t) (iblk1 V c 3 t) (iblk1 V c 4 t) (iblk1 V c 5 t)

/-- The result block after the body at point `t`: the run's pieces for it, read back. -/
def pairOut (c : Dev nD) (t : Fin cfg1.N) : Vec F S128x1 .f32 := View.canon (runAt V c t).1

theorem pairCover (c : Dev nD) (t : Fin cfg1.N) (y : S128x1.Idx) : ∃ pc ∈ (runAt V c t).1, y ∈ pc.1.set :=
  View.cover_of_tiledL (runAt V c t).1 S128x1.size (by sl_kernel_rfl) y

/-- The region's proof data on core `c`: the arrays as found; after the body each input's buffer at its block and the
    result's at `pairOut`; the invariant the scoped rest (the accumulator block in it, at anything) and the generator
    register; the projected array's full share dealt in two halves to the two windows that read it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => pairOut V c t
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = pairOut V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, PhiA1_eq]
  iintro ⟨⟨⟨Ha, Hb, Hc, HS⟩, Hg⟩, Ho, ⟨%d0, H0⟩, ⟨%d1, H1⟩, ⟨%d2, H2⟩, ⟨%d3, H3⟩, ⟨%d4, H4⟩, ⟨%d5, H5⟩, ⟨%d6, H6⟩⟩
  iapply ((runAt V c t).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, ⟨%e6, H6⟩, ⟨%e8, HS⟩⟩
  isplitl [Ha Hb Hc HS Hg]
  · isplitr [Hg]
    · isplitl [Ha]; · iexact Ha
      isplitl [Hb]; · iexact Hb
      isplitl [Hc]; · iexact Hc
      iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  exact View.read_writes_eq_canon _ _ _ (pairCover V c t)

theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.BitsSharedArrays.lean ====
/-
  The projected array is read by two windows of the second region. The region's proof data holds each window's array
  at the window's own share, so the one buffer behind the two windows is held as its two half shares. Here: the six
  distinct buffers behind the seven windows, the seven windows' holdings one by one, and the two passages — on entry
  the whole buffers give the windows' holdings (the projected array's whole share split in two), on exit the holdings
  (the result array at what the write-backs leave, every input as found, the two halves joined) give the whole buffers back.
-/
import proofs.«121339_j56934086476615_2_alg».proof.Proof.BitsPairRegion

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the second region's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v0) ↦{fullShare} X main_v0) ∗ (((c : Thread nD τ).loc main_arg0) ↦{fullShare} X main_arg0)
          ∗ (((c : Thread nD τ).loc main_v2) ↦{fullShare} X main_v2) ∗ (((c : Thread nD τ).loc main_v4) ↦{fullShare} X main_v4)
          ∗ (((c : Thread nD τ).loc main_v5) ↦{fullShare} X main_v5) ∗ (((c : Thread nD τ).loc main_v6) ↦{fullShare} X main_v6)) := by
  unfold Pipeline.arrBufs
  exact bigSep_eq_bigSepL_of_eq [main_v0, main_arg0, main_v2, main_v4, main_v5, main_v6] (by decide) (by decide) _

/-- The windows' holdings, one by one: the projected array at its two halves, the others whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_arg0) ↦{fullShare} G 2) ∗ (((c : Thread nD τ).loc main_v2) ↦{fullShare} G 3)
          ∗ (((c : Thread nD τ).loc main_v4) ↦{fullShare} G 4) ∗ (((c : Thread nD τ).loc main_v5) ↦{fullShare} G 5)
          ∗ (((c : Thread nD τ).loc main_v6) ↦{fullShare} G 6)) := by
  unfold Dat.arrays
  rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ]
  rfl

/-- ENTRY: the whole buffers at the entry contents give the windows' holdings at the proof data's entry contents. -/
theorem arrays1_entry (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hv0, Ha0, H2, H4, H5, H6⟩
  ihave Hh := (pointsTo_share (PosShare.mem_left_op_right fullShare)).1 $$ Hv0
  icases Hh with ⟨Hl, Hr⟩
  isplitl [Hl]; · iexact Hl
  isplitl [Hr]; · iexact Hr
  isplitl [Ha0]; · iexact Ha0
  isplitl [H2]; · iexact H2
  isplitl [H4]; · iexact H4
  isplitl [H5]; · iexact H5
  iexact H6

/-- EXIT: the windows' holdings after every write-back, with the unscoped rest, are the core's unscoped buffers at any
    contents that have the result array at what the write-backs leave and agree with the entry contents elsewhere. -/
theorem arrays1_exit (c : Dev nD) (X' : (b : Ref sig .tc) → Buf (Elt F) ((c : Thread nD τ).loc b))
    (hres : (dat1 V c).arrAt 6 cfg1.N = X' main_v6) (hrest : ∀ b, b ≠ main_v6 → X' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c X' : sProp 𝕄) := by
  rw [show (unscopedBufs c X' : sProp 𝕄) = iprop(Pipeline.arrBufs spec1 c X' ∗ Pipeline.unscopedRest spec1 c X')
    from Pipeline.unscopedBufs_split₀ cfgs 1 winFacts₀1.arr_unscoped c X', arrBufs1_eq, arrays1_eq]
  rw [show (Pipeline.unscopedRest (Ix := Unit) (Name := ℕ) (U := UR sig nD τ) (Lvl := ℕ) spec1 c X' : sProp 𝕄)
      = Pipeline.unscopedRest spec1 c (V c) from by
    unfold Pipeline.unscopedRest
    exact bigSep_congr fun b hb => by
      rw [hrest b fun e => (Finset.mem_sdiff.mp hb).2 (Finset.mem_image.mpr ⟨6, Finset.mem_univ _, e.symm⟩)]]
  rw [hrest main_v0 (by decide), hrest main_arg0 (by decide), hrest main_v2 (by decide), hrest main_v4 (by decide),
    hrest main_v5 (by decide), ← hres]
  rw [(dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl]
  iintro ⟨⟨Hl, Hr, Ha0, H2, H4, H5, H6⟩, Hrest⟩
  isplitr [Hrest]
  · ihave Hv0 := (pointsTo_share (PosShare.mem_left_op_right fullShare)).2 $$ [Hl Hr]
    · isplitl [Hl]; · iexact Hl
      iexact Hr
    isplitl [Hv0]; · iexact Hv0
    isplitl [Ha0]; · iexact Ha0
    isplitl [H2]; · iexact H2
    isplitl [H4]; · iexact H4
    isplitl [H5]; · iexact H5
    iexact H6
  iexact Hrest

end Cert.Kernel.Body

end
-- ==== Proof.BitsRun.lean ====
/-
  The whole run of the program: the projection region, the host's slicing of the weight column into its two parts
  (reshaped to rows) and of the bias, then the pairwise region. Between items every unscoped buffer is held whole at a
  named valuation: the launch memory; that with the projected array at what the first region's write-back leaves;
  that after the host operations; that with the result array at what the second region's write-backs leave. The
  projected array is read by two windows of the second region, which therefore holds it as two half shares, split
  from the whole on entry and joined again on exit. No item writes an argument array, so each ends as launched.
-/
import proofs.«121339_j56934086476615_2_alg».proof.Proof.BitsProjRegion
import proofs.«121339_j56934086476615_2_alg».proof.Proof.BitsPairRegion
import proofs.«121339_j56934086476615_2_alg».proof.Proof.BitsSharedArrays
import proofs.«121339_j56934086476615_2_alg».proof.Proof.Gen.Kernel.Regions

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between items -/

/-- At launch. -/
abbrev W0 (c : Dev nD) : Valuation τ sig (Elt F) := fun b => m (c, b)
abbrev U0 : (c : Dev nD) → (b : Ref sig .tc) → Buf (Elt F) ((c : Thread nD τ).loc b) := fun c b => W0 m c b
/-- The projected array as the first region leaves it. -/
def projArr (c : Dev nD) : Buf (Elt F) ((c : Thread nD τ).loc main_v0) := (dat0 (U0 m) c).arrAt 2 cfg0.N
/-- After the first region. -/
abbrev W1 (c : Dev nD) : Valuation τ sig (Elt F) := Function.update (W0 m c) main_v0 (projArr m c)
abbrev U1 : (c : Dev nD) → (b : Ref sig .tc) → Buf (Elt F) ((c : Thread nD τ).loc b) := fun c b => W1 m c b
/-- After the host operations. -/
abbrev W2 (c : Dev nD) : Valuation τ sig (Elt F) := StableHlo.after hostOps1 (W1 m c)
abbrev U2 : (c : Dev nD) → (b : Ref sig .tc) → Buf (Elt F) ((c : Thread nD τ).loc b) := fun c b => W2 m c b
/-- The result array as the second region leaves it. -/
def resArr (c : Dev nD) : Buf (Elt F) ((c : Thread nD τ).loc main_v6) := (dat1 (U2 m) c).arrAt 6 cfg1.N
/-- After the second region. -/
abbrev W3 (c : Dev nD) : Valuation τ sig (Elt F) := Function.update (W2 m c) main_v6 (resArr m c)
abbrev U3 : (c : Dev nD) → (b : Ref sig .tc) → Buf (Elt F) ((c : Thread nD τ).loc b) := fun c b => W3 m c b

theorem W1_of (c : Dev nD) (r : Ref sig .tc) (h : r ≠ main_v0) : W1 m c r = W0 m c r := by
  simp only [W1, Function.update_of_ne (StableHlo.devRef_ne_of_ne h : (Proc.devRef .tc r : DevRef τ sig) ≠ Proc.devRef .tc main_v0)]
theorem W1_self (c : Dev nD) : W1 m c main_v0 = projArr m c := by
  simp only [W1, Function.update_self]
theorem W2_of (c : Dev nD) (r : Ref sig .tc) (h : r ∉ hostOps1_W) : W2 m c r = W1 m c r :=
  StableHlo.after_of_writes_sub hostOps1 _ hostOps1_writes h
theorem W3_of (c : Dev nD) (r : Ref sig .tc) (h : r ≠ main_v6) : W3 m c r = W2 m c r := by
  simp only [W3, Function.update_of_ne (StableHlo.devRef_ne_of_ne h : (Proc.devRef .tc r : DevRef τ sig) ≠ Proc.devRef .tc main_v6)]
theorem W3_self (c : Dev nD) : W3 m c main_v6 = resArr m c := by
  simp only [W3, Function.update_self]
/-- A buffer no item writes ends as launched. -/
theorem W3_kept (c : Dev nD) (r : Ref sig .tc) (h0 : r ≠ main_v0) (h1 : r ∉ hostOps1_W) (h6 : r ≠ main_v6) :
    W3 m c r = m ((c : Thread nD τ).loc r) :=
  (W3_of m c r h6).trans <| (W2_of m c r h1).trans <| (W1_of m c r h0).trans rfl

/-! ## The proof data and the thread state -/

def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The first region -/

theorem hF0 (c : Dev nD) (w : Fin cfg0.W) : (dat0 (U0 m) c).arrAt w cfg0.N = U1 m c (Pipeline.arrRef spec0 w) := by
  match w with
  | ⟨0, _⟩ => exact ((dat0 (U0 m) c).arrAt_in 0 rfl _).trans ((A_eq0 (U0 m) c 0).trans (W1_of m c main_arg0 (by decide)).symm)
  | ⟨1, _⟩ => exact ((dat0 (U0 m) c).arrAt_in 1 rfl _).trans ((A_eq0 (U0 m) c 1).trans (W1_of m c main_arg1 (by decide)).symm)
  | ⟨2, _⟩ => exact (W1_self m c).symm
theorem hrest0 (c : Dev nD) : ∀ b, b ∉ Finset.univ.image (Pipeline.arrRef spec0) → U1 m c b = U0 m c b :=
  fun b hb => W1_of m c b fun e => hb (Finset.mem_image.mpr ⟨2, Finset.mem_univ _, e.symm⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hs : (unscopedBufs c (U2 m c) : sProp 𝕄) = iprop(Pipeline.arrBufs spec1 c (U2 m c) ∗ Pipeline.unscopedRest spec1 c (U2 m c)) :=
      Pipeline.unscopedBufs_split₀ cfgs 1 winFacts₀1.arr_unscoped c (U2 m c)
    rw [Pipeline.unscopedBufs_held] at hs
    have hsE := Entails.of_eq hs
    have hA := arrays1_entry (U2 m) c
    iintro ⟨⟨Hub, Hp, HO⟩, -, -⟩
    ihave H := hsE $$ Hub
    icases H with ⟨Hb, Hrest⟩
    ihave Ha := hA $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_exit (U2 m) c (U3 m c)
      (show (dat1 (U2 m) c).arrAt 6 cfg1.N = W3 m c main_v6 from (W3_self m c).symm) (fun b hb => W3_of m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- Every weakly fair execution from memory `m` terminates without a fault; the result array ends at what the second
    region leaves, and every argument array as launched. -/
theorem run : θ_run defs (onTc (τ := τ) (main (F := F))) ⟨m, fun _ => 0, ρ⟩ (fun r => ∀ c : Dev nD,
      r.2.mem ((c.tc : Thread nD τ).loc main_v6) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v6 (by decide))).trans (W3_self m c),
       (h c _ (mem_uc main_arg0 (by decide))).trans (W3_kept m c main_arg0 (by decide) (by decide) (by decide)),
       (h c _ (mem_uc main_arg1 (by decide))).trans (W3_kept m c main_arg1 (by decide) (by decide) (by decide)),
       (h c _ (mem_uc main_arg2 (by decide))).trans (W3_kept m c main_arg2 (by decide) (by decide) (by decide)),
       (h c _ (mem_uc main_arg3 (by decide))).trans (W3_kept m c main_arg3 (by decide) (by decide) (by decide))⟩)

end Cert.Kernel.Body

end
-- ==== Proof.ProjRegion.lean ====
/-
  The first kernel region: the projection P = x · T, one grid point, both operands and the result whole blocks.
  The body loads the two operand blocks, forms their matrix product into a zero accumulator (the operands pass
  through a narrower float format on the way, which changes nothing at the exact instance and is part of the
  payload at the word-level one) and stores it over the whole result block. Stated here, for any float instance:
  what the result block holds after the body as a function of the two operand blocks, the body's triple, and the
  region's proof data with its body obligation.
-/
import proofs.«121339_j56934086476615_2_alg».proof.Proof.Gen.KernelIdeal.Launch
import proofs.«121339_j56934086476615_2_alg».proof.Proof.Gen.KernelIdeal.Skeleton
import proofs.«121339_j56934086476615_2_alg».proof.Proof.Gen.KernelIdeal.Points
import proofs.«121339_j56934086476615_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, instantiated by the run
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at the one point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole blocks the body reads and writes. -/
abbrev rX : Rect S1024x16 := Rect.unit (s := S1024x16) ![0, 0] S1024x16.size inb_S1024x16_S1024x16_0_0
abbrev rT : Rect S16x256 := Rect.unit (s := S16x256) ![0, 0] S16x256.size inb_S16x256_S16x256_0_0
abbrev rP : Rect S1024x256 := Rect.unit (s := S1024x256) ![0, 0] S1024x256.size inb_S1024x256_S1024x256_0_0

/-- The result block after the body: the product payload of the two operand blocks, stored whole. -/
def projOut (x0 : Vec F S1024x16 .f32) (x1 : Vec F S16x256 .f32) : Vec F S1024x256 .f32 :=
  View.canon [⟨rP, k0_pay1 (View.ld x0 rX) (View.ld x1 rT)⟩]

theorem projCover (p0 : Vec F S1024x256 .f32) (y : S1024x256.Idx) :
    ∃ pc ∈ ([⟨rP, p0⟩] : List (View.Piece (Elt F) S1024x256 .f32)), y ∈ pc.1.set :=
  View.cover_of_tiled [⟨rP, p0⟩] S1024x256.size (by rfl) y

set_option maxHeartbeats 1000000 in
/-- The body on whole staging memrefs: the operands' as found, the result's at anything, to the operands' unchanged and the
    result's at `projOut`. -/
theorem sound_proj (c : Dev nD) (E : Set ℕ) (i : grid0.Coords) (arg1 : Memref sig .tc .vmem S1024x16 .f32) (harg1 : arg1.IsWhole)
    (arg2 : Memref sig .tc .vmem S16x256 .f32) (harg2 : arg2.IsWhole) (arg3 : Memref sig .tc .vmem S1024x256 .f32) (harg3 : arg3.IsWhole)
    (x0 : Vec F S1024x16 .f32) (x1 : Vec F S16x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__ms_kernel i arg1 harg1 arg2 harg2 arg3 harg3) K := by
  simp only [cc0__ms_kernel_eq_skeleton]; unfold cc0__ms_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The region's proof data on core `c`: the arrays as found; after the body each operand's buffer at its block and the
    result's at `projOut` of the two blocks; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => projOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projOut (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.PairRun.lean ====
/-
  The second kernel's body, run once on whole staging memrefs: the accumulator block is zero-filled, the 64 chunk
  trips each add their chunk's pair terms into it, and the logistic of the row's linear form is stored over the
  result block. What the result block and the accumulator block end with are found by the run itself.
-/
import proofs.«121339_j56934086476615_2_alg».proof.Proof.Gen.KernelIdeal.Launch
import proofs.«121339_j56934086476615_2_alg».proof.Proof.Gen.KernelIdeal.Skeleton
import proofs.«121339_j56934086476615_2_alg».proof.Proof.Gen.KernelIdeal.Points
import proofs.«121339_j56934086476615_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: the six operand blocks as found and unchanged, the result block and the accumulator block at
    anything before, and after at the pieces the run finds (`L7` for the result, `LS` for the accumulator). -/
noncomputable def pairRun (c : Dev nD) (i : grid1.Coords) (arg1 : Memref sig .tc .vmem S128x256 .f32) (harg1 : arg1.IsWhole) (arg2 : Memref sig .tc .vmem S1024x256 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole)
    (x0 : Vec F S128x256 .f32) (x1 : Vec F S1024x256 .f32) (x2 : Vec F S128x16 .f32) (x3 : Vec F S1x16 .f32) (x4 : Vec F S1x256 .f32) (x5 : Vec F S1x1 .f32) :
    Σ' (L7 : List (View.Piece (Elt F) S128x1 .f32)), { LS : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS)) -∗ K ⟨⟩))
          ⊢ wp frame (wpE (defs₀ (F := F)) Variants.none c none) E (cc1__pairwise_kernel i arg1 harg1 arg2 harg2 arg3 harg3 arg4 harg4 arg5 harg5 arg6 harg6 arg7 harg7 arg8 harg8) K } := by
  refine ⟨?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    iexists _; iexact H8

end Cert.KernelIdeal.Body

end
-- ==== Proof.PairRegion.lean ====
/-
  The second kernel region: for each tile of 128 rows, the closeness features accumulated chunk by chunk against the
  whole projected minibatch, then the logistic of the rows' linear form. Eight grid points; the projected array is
  handed to the kernel twice (the tile's rows through one window, the whole array through another); the accumulator
  block is a scratch buffer, zero-filled at every point before anything reads it, so the region's invariant need
  not say what it holds between points. Stated here, for any float instance: the region's proof data (what each
  window's buffer holds after the body at each point) and its body obligation.
-/
import proofs.«121339_j56934086476615_2_alg».proof.Proof.PairRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, whether fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The accumulator block as a memref. -/
abbrev accM : Memref sig .tc .vmem S128x256 .f32 := Memref.whole cc1_scratch0

/-- The region's invariant with the accumulator block owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ d, owns (c : Thread nD τ) accM fullShare d)) ∗ (∃ r, prngReg c r)) := by
  unfold Pipeline.ΦA; rw [scopedRest1_eq]; simp only [accM, owns_whole]; try rfl

/-- The body's run at point `t`, on the staging memrefs the pipeline calls it with and the windows' blocks there. -/
abbrev runAt (c : Dev nD) (t : Fin cfg1.N) :=
  pairRun (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) accM (Memref.isWhole_whole _) (iblk1 V c 0 t) (iblk1 V c 1 t) (iblk1 V c 2 t) (iblk1 V c 3 t) (iblk1 V c 4 t) (iblk1 V c 5 t)

/-- The result block after the body at point `t`: the run's pieces for it, read back. -/
def pairOut (c : Dev nD) (t : Fin cfg1.N) : Vec F S128x1 .f32 := View.canon (runAt V c t).1

theorem pairCover (c : Dev nD) (t : Fin cfg1.N) (y : S128x1.Idx) : ∃ pc ∈ (runAt V c t).1, y ∈ pc.1.set :=
  View.cover_of_tiledL (runAt V c t).1 S128x1.size (by sl_kernel_rfl) y

/-- The region's proof data on core `c`: the arrays as found; after the body each input's buffer at its block and the
    result's at `pairOut`; the invariant the scoped rest (the accumulator block in it, at anything) and the generator
    register; the projected array's full share dealt in two halves to the two windows that read it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => pairOut V c t
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = pairOut V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, PhiA1_eq]
  iintro ⟨⟨⟨Ha, Hb, Hc, HS⟩, Hg⟩, Ho, ⟨%d0, H0⟩, ⟨%d1, H1⟩, ⟨%d2, H2⟩, ⟨%d3, H3⟩, ⟨%d4, H4⟩, ⟨%d5, H5⟩, ⟨%d6, H6⟩⟩
  iapply ((runAt V c t).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, ⟨%e6, H6⟩, ⟨%e8, HS⟩⟩
  isplitl [Ha Hb Hc HS Hg]
  · isplitr [Hg]
    · isplitl [Ha]; · iexact Ha
      isplitl [Hb]; · iexact Hb
      isplitl [Hc]; · iexact Hc
      iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  exact View.read_writes_eq_canon _ _ _ (pairCover V c t)

theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.SharedArrays.lean ====
/-
  The projected array is read by two windows of the second region. The region's proof data holds each window's array
  at the window's own share, so the one buffer behind the two windows is held as its two half shares. Here: the six
  distinct buffers behind the seven windows, the seven windows' holdings one by one, and the two passages — on entry
  the whole buffers give the windows' holdings (the projected array's whole share split in two), on exit the holdings
  (the result array at what the write-backs leave, every input as found, the two halves joined) give the whole buffers back.
-/
import proofs.«121339_j56934086476615_2_alg».proof.Proof.PairRegion

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the second region's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v0) ↦{fullShare} X main_v0) ∗ (((c : Thread nD τ).loc main_arg0) ↦{fullShare} X main_arg0)
          ∗ (((c : Thread nD τ).loc main_v2) ↦{fullShare} X main_v2) ∗ (((c : Thread nD τ).loc main_v4) ↦{fullShare} X main_v4)
          ∗ (((c : Thread nD τ).loc main_v5) ↦{fullShare} X main_v5) ∗ (((c : Thread nD τ).loc main_v6) ↦{fullShare} X main_v6)) := by
  unfold Pipeline.arrBufs
  exact bigSep_eq_bigSepL_of_eq [main_v0, main_arg0, main_v2, main_v4, main_v5, main_v6] (by decide) (by decide) _

/-- The windows' holdings, one by one: the projected array at its two halves, the others whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_arg0) ↦{fullShare} G 2) ∗ (((c : Thread nD τ).loc main_v2) ↦{fullShare} G 3)
          ∗ (((c : Thread nD τ).loc main_v4) ↦{fullShare} G 4) ∗ (((c : Thread nD τ).loc main_v5) ↦{fullShare} G 5)
          ∗ (((c : Thread nD τ).loc main_v6) ↦{fullShare} G 6)) := by
  unfold Dat.arrays
  rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ]
  rfl

/-- ENTRY: the whole buffers at the entry contents give the windows' holdings at the proof data's entry contents. -/
theorem arrays1_entry (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hv0, Ha0, H2, H4, H5, H6⟩
  ihave Hh := (pointsTo_share (PosShare.mem_left_op_right fullShare)).1 $$ Hv0
  icases Hh with ⟨Hl, Hr⟩
  isplitl [Hl]; · iexact Hl
  isplitl [Hr]; · iexact Hr
  isplitl [Ha0]; · iexact Ha0
  isplitl [H2]; · iexact H2
  isplitl [H4]; · iexact H4
  isplitl [H5]; · iexact H5
  iexact H6

/-- EXIT: the windows' holdings after every write-back, with the unscoped rest, are the core's unscoped buffers at any
    contents that have the result array at what the write-backs leave and agree with the entry contents elsewhere. -/
theorem arrays1_exit (c : Dev nD) (X' : (b : Ref sig .tc) → Buf (Elt F) ((c : Thread nD τ).loc b))
    (hres : (dat1 V c).arrAt 6 cfg1.N = X' main_v6) (hrest : ∀ b, b ≠ main_v6 → X' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c X' : sProp 𝕄) := by
  rw [show (unscopedBufs c X' : sProp 𝕄) = iprop(Pipeline.arrBufs spec1 c X' ∗ Pipeline.unscopedRest spec1 c X')
    from Pipeline.unscopedBufs_split₀ cfgs 1 winFacts₀1.arr_unscoped c X', arrBufs1_eq, arrays1_eq]
  rw [show (Pipeline.unscopedRest (Ix := Unit) (Name := ℕ) (U := UR sig nD τ) (Lvl := ℕ) spec1 c X' : sProp 𝕄)
      = Pipeline.unscopedRest spec1 c (V c) from by
    unfold Pipeline.unscopedRest
    exact bigSep_congr fun b hb => by
      rw [hrest b fun e => (Finset.mem_sdiff.mp hb).2 (Finset.mem_image.mpr ⟨6, Finset.mem_univ _, e.symm⟩)]]
  rw [hrest main_v0 (by decide), hrest main_arg0 (by decide), hrest main_v2 (by decide), hrest main_v4 (by decide),
    hrest main_v5 (by decide), ← hres]
  rw [(dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl]
  iintro ⟨⟨Hl, Hr, Ha0, H2, H4, H5, H6⟩, Hrest⟩
  isplitr [Hrest]
  · ihave Hv0 := (pointsTo_share (PosShare.mem_left_op_right fullShare)).2 $$ [Hl Hr]
    · isplitl [Hl]; · iexact Hl
      iexact Hr
    isplitl [Hv0]; · iexact Hv0
    isplitl [Ha0]; · iexact Ha0
    isplitl [H2]; · iexact H2
    isplitl [H4]; · iexact H4
    isplitl [H5]; · iexact H5
    iexact H6
  iexact Hrest

end Cert.KernelIdeal.Body

end
-- ==== Proof.Run.lean ====
/-
  The whole run of the program: the projection region, the host's slicing of the weight column into its two parts
  (reshaped to rows) and of the bias, then the pairwise region. Between items every unscoped buffer is held whole at a
  named valuation: the launch memory; that with the projected array at what the first region's write-back leaves;
  that after the host operations; that with the result array at what the second region's write-backs leave. The
  projected array is read by two windows of the second region, which therefore holds it as two half shares, split
  from the whole on entry and joined again on exit. No item writes an argument array, so each ends as launched.
-/
import proofs.«121339_j56934086476615_2_alg».proof.Proof.ProjRegion
import proofs.«121339_j56934086476615_2_alg».proof.Proof.PairRegion
import proofs.«121339_j56934086476615_2_alg».proof.Proof.SharedArrays
import proofs.«121339_j56934086476615_2_alg».proof.Proof.Gen.KernelIdeal.Regions

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between items -/

/-- At launch. -/
abbrev W0 (c : Dev nD) : Valuation τ sig (Elt F) := fun b => m (c, b)
abbrev U0 : (c : Dev nD) → (b : Ref sig .tc) → Buf (Elt F) ((c : Thread nD τ).loc b) := fun c b => W0 m c b
/-- The projected array as the first region leaves it. -/
def projArr (c : Dev nD) : Buf (Elt F) ((c : Thread nD τ).loc main_v0) := (dat0 (U0 m) c).arrAt 2 cfg0.N
/-- After the first region. -/
abbrev W1 (c : Dev nD) : Valuation τ sig (Elt F) := Function.update (W0 m c) main_v0 (projArr m c)
abbrev U1 : (c : Dev nD) → (b : Ref sig .tc) → Buf (Elt F) ((c : Thread nD τ).loc b) := fun c b => W1 m c b
/-- After the host operations. -/
abbrev W2 (c : Dev nD) : Valuation τ sig (Elt F) := StableHlo.after hostOps1 (W1 m c)
abbrev U2 : (c : Dev nD) → (b : Ref sig .tc) → Buf (Elt F) ((c : Thread nD τ).loc b) := fun c b => W2 m c b
/-- The result array as the second region leaves it. -/
def resArr (c : Dev nD) : Buf (Elt F) ((c : Thread nD τ).loc main_v6) := (dat1 (U2 m) c).arrAt 6 cfg1.N
/-- After the second region. -/
abbrev W3 (c : Dev nD) : Valuation τ sig (Elt F) := Function.update (W2 m c) main_v6 (resArr m c)
abbrev U3 : (c : Dev nD) → (b : Ref sig .tc) → Buf (Elt F) ((c : Thread nD τ).loc b) := fun c b => W3 m c b

theorem W1_of (c : Dev nD) (r : Ref sig .tc) (h : r ≠ main_v0) : W1 m c r = W0 m c r := by
  simp only [W1, Function.update_of_ne (StableHlo.devRef_ne_of_ne h : (Proc.devRef .tc r : DevRef τ sig) ≠ Proc.devRef .tc main_v0)]
theorem W1_self (c : Dev nD) : W1 m c main_v0 = projArr m c := by
  simp only [W1, Function.update_self]
theorem W2_of (c : Dev nD) (r : Ref sig .tc) (h : r ∉ hostOps1_W) : W2 m c r = W1 m c r :=
  StableHlo.after_of_writes_sub hostOps1 _ hostOps1_writes h
theorem W3_of (c : Dev nD) (r : Ref sig .tc) (h : r ≠ main_v6) : W3 m c r = W2 m c r := by
  simp only [W3, Function.update_of_ne (StableHlo.devRef_ne_of_ne h : (Proc.devRef .tc r : DevRef τ sig) ≠ Proc.devRef .tc main_v6)]
theorem W3_self (c : Dev nD) : W3 m c main_v6 = resArr m c := by
  simp only [W3, Function.update_self]
/-- A buffer no item writes ends as launched. -/
theorem W3_kept (c : Dev nD) (r : Ref sig .tc) (h0 : r ≠ main_v0) (h1 : r ∉ hostOps1_W) (h6 : r ≠ main_v6) :
    W3 m c r = m ((c : Thread nD τ).loc r) :=
  (W3_of m c r h6).trans <| (W2_of m c r h1).trans <| (W1_of m c r h0).trans rfl

/-! ## The proof data and the thread state -/

def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The first region -/

theorem hF0 (c : Dev nD) (w : Fin cfg0.W) : (dat0 (U0 m) c).arrAt w cfg0.N = U1 m c (Pipeline.arrRef spec0 w) := by
  match w with
  | ⟨0, _⟩ => exact ((dat0 (U0 m) c).arrAt_in 0 rfl _).trans ((A_eq0 (U0 m) c 0).trans (W1_of m c main_arg0 (by decide)).symm)
  | ⟨1, _⟩ => exact ((dat0 (U0 m) c).arrAt_in 1 rfl _).trans ((A_eq0 (U0 m) c 1).trans (W1_of m c main_arg1 (by decide)).symm)
  | ⟨2, _⟩ => exact (W1_self m c).symm
theorem hrest0 (c : Dev nD) : ∀ b, b ∉ Finset.univ.image (Pipeline.arrRef spec0) → U1 m c b = U0 m c b :=
  fun b hb => W1_of m c b fun e => hb (Finset.mem_image.mpr ⟨2, Finset.mem_univ _, e.symm⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hs : (unscopedBufs c (U2 m c) : sProp 𝕄) = iprop(Pipeline.arrBufs spec1 c (U2 m c) ∗ Pipeline.unscopedRest spec1 c (U2 m c)) :=
      Pipeline.unscopedBufs_split₀ cfgs 1 winFacts₀1.arr_unscoped c (U2 m c)
    rw [Pipeline.unscopedBufs_held] at hs
    have hsE := Entails.of_eq hs
    have hA := arrays1_entry (U2 m) c
    iintro ⟨⟨Hub, Hp, HO⟩, -, -⟩
    ihave H := hsE $$ Hub
    icases H with ⟨Hb, Hrest⟩
    ihave Ha := hA $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_exit (U2 m) c (U3 m c)
      (show (dat1 (U2 m) c).arrAt 6 cfg1.N = W3 m c main_v6 from (W3_self m c).symm) (fun b hb => W3_of m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- Every weakly fair execution from memory `m` terminates without a fault; the result array ends at what the second
    region leaves, and every argument array as launched. -/
theorem run : θ_run defs (onTc (τ := τ) (main (F := F))) ⟨m, fun _ => 0, ρ⟩ (fun r => ∀ c : Dev nD,
      r.2.mem ((c.tc : Thread nD τ).loc main_v6) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v6 (by decide))).trans (W3_self m c),
       (h c _ (mem_uc main_arg0 (by decide))).trans (W3_kept m c main_arg0 (by decide) (by decide) (by decide)),
       (h c _ (mem_uc main_arg1 (by decide))).trans (W3_kept m c main_arg1 (by decide) (by decide) (by decide)),
       (h c _ (mem_uc main_arg2 (by decide))).trans (W3_kept m c main_arg2 (by decide) (by decide) (by decide)),
       (h c _ (mem_uc main_arg3 (by decide))).trans (W3_kept m c main_arg3 (by decide) (by decide) (by decide))⟩)

end Cert.KernelIdeal.Body

end
-- ==== Proof.AccRun.lean ====
/-
  What the second kernel's body computes, as a function of its operand blocks. The accumulator block starts at the
  zero block; chunk trip n replaces it by the chunk payload of the tile's rows, rows 16n … 16n+15 of the whole
  projected array, and the accumulator as the trip found it; after the 64 trips the result block is the logistic
  payload of the feature block, the two weight rows, the accumulator and the bias. Here the run's own finds
  (the pieces it leaves in the accumulator trip by trip, and in the result block) are read back as that function.
-/
import proofs.«121339_j56934086476615_2_alg».proof.Proof.PairRun
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz : (![0, 0] : Fin 2 → Nat) = fun _ => 0 := funext fun a => by fin_cases a <;> rfl

/-- The rows of the whole projected array that chunk trip `k` reads. -/
abbrev chunkRect (k : Fin k1_t1_loop.trips) : Rect S1024x256 := Rect.unit (s := S1024x256) (k1_off1 k) S16x256.size (k1_off1_inb k)
abbrev accRect : Rect S128x256 := Rect.unit (s := S128x256) ![0, 0] S128x256.size inb_S128x256_S128x256_0_0

/-- The accumulator block before chunk trip `n`. -/
def accAt (v4 : Vec F S128x256 .f32) (x1 : Vec F S1024x256 .f32) : ℕ → Vec F S128x256 .f32
  | 0 => k1_pay1
  | n + 1 => if h : n < k1_t1_loop.trips then k1_pay2 v4 (View.ld x1 (chunkRect ⟨n, h⟩)) (accAt v4 x1 n) else accAt v4 x1 n

theorem accAt_succ (v4 : Vec F S128x256 .f32) (x1 : Vec F S1024x256 .f32) (k : Fin k1_t1_loop.trips) :
    accAt v4 x1 (k.val + 1) = k1_pay2 v4 (View.ld x1 (chunkRect k)) (accAt v4 x1 k.val) := by
  rw [accAt]; exact dif_pos k.isLt

/-- One trip's find: one store over the whole accumulator block, of the chunk payload. -/
theorem trip_piece (c : Dev nD) (i : grid1.Coords) (arg1 : Memref sig .tc .vmem S128x256 .f32) (harg1 : arg1.IsWhole) (arg2 : Memref sig .tc .vmem S1024x256 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (v4 : Vec F S128x256 .f32) (X : BufTy.Contents (Elt F) arg2.view.ty) (k : Fin k1_t1_loop.trips) (f : BufTy.Contents (Elt F) arg8.view.ty) :
    tripL_k1_t1 (F := F) Variants.none c none i arg1 harg1 arg2 harg2 arg3 harg3 arg4 harg4 arg5 harg5 arg6 harg6 arg7 harg7 arg8 harg8 v4 X k f
      = [⟨accRect, k1_pay2 v4 (View.readAt (Elt F) arg2.view (chunkRect k).toLoadRect X) (View.readAt (Elt F) arg8.view accRect.toLoadRect f)⟩] := by
  unfold tripL_k1_t1 trip_k1_t1
  rfl

/-- A store over the whole block, read back, is its payload. -/
theorem read_whole_store (v : View sig .tc .vmem S128x256 .f32) (f : v.ty.Contents (Elt F)) (w : Vec F S128x256 .f32) :
    v.read (Elt F) (v.writes (Elt F) f [⟨accRect, w⟩]) = w := by
  rw [View.read_writes_eq_canon _ _ _ (fun y => ⟨_, List.mem_singleton_self _, View.mem_set_unit_zero zz inb_S128x256_S128x256_0_0 y⟩), View.canon_unit_zero zz]

/-- The accumulator's contents before trip `n`, read back: the trips' stores over the zero fill. -/
theorem read_acc (c : Dev nD) (i : grid1.Coords) (arg1 : Memref sig .tc .vmem S128x256 .f32) (harg1 : arg1.IsWhole) (arg2 : Memref sig .tc .vmem S1024x256 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (v4 : Vec F S128x256 .f32) (x1 : Vec F S1024x256 .f32) :
    ∀ n, n ≤ k1_t1_loop.trips →
      arg8.view.read (Elt F) (arg8.view.writes (Elt F) (arg8.view.writes (Elt F) arg8.view.junk [⟨accRect, k1_pay1⟩])
        (pb_k1_t1 (F := F) Variants.none c none i arg1 harg1 arg2 harg2 arg3 harg3 arg4 harg4 arg5 harg5 arg6 harg6 arg7 harg7 arg8 harg8 v4 (harg2.unread x1)
          (arg8.view.writes (Elt F) arg8.view.junk [⟨accRect, k1_pay1⟩]) n)) = accAt v4 x1 n
  | 0, _ => by
    rw [pb_k1_t1]
    exact read_whole_store _ _ _
  | n + 1, hn => by
    have ih := read_acc c i arg1 harg1 arg2 harg2 arg3 harg3 arg4 harg4 arg5 harg5 arg6 harg6 arg7 harg7 arg8 harg8 v4 x1 n (Nat.le_of_succ_le hn)
    rw [pb_k1_t1_succ (F := F) Variants.none c none i arg1 harg1 arg2 harg2 arg3 harg3 arg4 harg4 arg5 harg5 arg6 harg6 arg7 harg7 arg8 harg8 v4 (harg2.unread x1) _ ⟨n, hn⟩, View.writes_append, trip_piece,
      read_whole_store, accAt_succ v4 x1 ⟨n, hn⟩]
    rw [View.readAt_eq_ld, View.readAt_eq_ld, harg2.read_unread, ih, View.ld_unit_zero (S := S128x256) zz]

theorem trips_eq : Scf.trips k1_t1_loop.lb k1_t1_loop.ub k1_t1_loop.st = k1_t1_loop.trips := rfl

/-- The result block after the body: the logistic payload of the operand blocks and the accumulator after all trips. -/
theorem canon_result (c : Dev nD) (i : grid1.Coords) (arg1 : Memref sig .tc .vmem S128x256 .f32) (harg1 : arg1.IsWhole) (arg2 : Memref sig .tc .vmem S1024x256 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole)
    (x0 : Vec F S128x256 .f32) (x1 : Vec F S1024x256 .f32) (x2 : Vec F S128x16 .f32) (x3 : Vec F S1x16 .f32) (x4 : Vec F S1x256 .f32) (x5 : Vec F S1x1 .f32) :
    View.canon (pairRun (F := F) c i arg1 harg1 arg2 harg2 arg3 harg3 arg4 harg4 arg5 harg5 arg6 harg6 arg7 harg7 arg8 harg8 x0 x1 x2 x3 x4 x5).1
      = k1_pay3 x2 x3 (accAt x0 x1 k1_t1_loop.trips) x4 x5 := by
  unfold pairRun
  dsimp only
  sl_unfold_words
  rw [View.canon_unit_zero zz]
  simp only [View.readAt_eq_ld, harg1.read_unread, harg3.read_unread, harg4.read_unread, harg5.read_unread, harg6.read_unread,
    View.ld_unit_zero (S := S128x256) zz, View.ld_unit_zero (S := S128x16) zz, View.ld_unit_zero (S := S1x16) zz,
    View.ld_unit_zero (S := S1x256) zz, View.ld_unit_zero (S := S1x1) zz, View.writes_append]
  rw [trips_eq, read_acc c i arg1 harg1 arg2 harg2 arg3 harg3 arg4 harg4 arg5 harg5 arg6 harg6 arg7 harg7 arg8 harg8 x0 x1 _ (Nat.le_refl _)]

end Cert.KernelIdeal.Body

end
-- ==== Proof.Spec.lean ====
/-
  The function both programs compute, stated once over the argument arrays.

  For a minibatch of 1024 rows x[i, ·] of 16 features, a projection tensor T (16 × 256), a weight column w (272 × 1)
  and a bias b: each row is projected to 256 coordinates, P[i, k] = Σ_f x[i, f] · T[f, k]; row i's closeness to the
  minibatch along coordinate k is C[i, k] = Σ_j exp(-|P[i, k] - P[j, k]|), summed over all 1024 rows j; the row's
  logit is the weight column applied to the row's own 16 features followed by its 256 closeness features, plus the
  bias; the result is the logistic function of the logit. Everything is read on the extended reals, where sums may be
  split and regrouped freely (addition is commutative and associative there) and |a| is max a (-a).
-/
import Idealize.ShloMosaic.PureOps.Ideal
import Idealize.ShloMosaic.Lib.ValueIdx

noncomputable section

open scoped BigOperators

namespace Cert.Discrim

open Idealize.ShloMosaic Idealize.ShloMosaic.ValueIdx

/-- The projection P[i, k] = Σ_f x[i, f] · T[f, k]. -/
def proj (x : FVec Ideal ⟨2, ![1024, 16]⟩ .f32) (T : FVec Ideal ⟨2, ![16, 256]⟩ .f32) (i : Fin 1024) (k : Fin 256) : EReal :=
  ∑ f : Fin 16, x (ix2 i f) * T (ix2 f k)

/-- One pair's term exp(-|a - b|), with |d| spelt max d (-d). -/
def pairTerm (a b : EReal) : EReal := Ideal.exp (-(max (a - b) (-(a - b))))

/-- The closeness feature C[i, k] = Σ_j exp(-|P[i, k] - P[j, k]|) over all 1024 rows j. -/
def closeness (x : FVec Ideal ⟨2, ![1024, 16]⟩ .f32) (T : FVec Ideal ⟨2, ![16, 256]⟩ .f32) (i : Fin 1024) (k : Fin 256) : EReal :=
  ∑ j : Fin 1024, pairTerm (proj x T i k) (proj x T j k)

/-- Row i's logit: its own features against the first 16 weights, its closeness features against the other 256, plus the bias. -/
def logit (x : FVec Ideal ⟨2, ![1024, 16]⟩ .f32) (T : FVec Ideal ⟨2, ![16, 256]⟩ .f32)
    (w : FVec Ideal ⟨2, ![272, 1]⟩ .f32) (b : FVec Ideal ⟨1, ![1]⟩ .f32) (i : Fin 1024) : EReal :=
  ((∑ f : Fin 16, x (ix2 i f) * w (ix2 (⟨f.val, by omega⟩ : Fin 272) (0 : Fin 1)))
    + (∑ k : Fin 256, closeness x T i k * w (ix2 (⟨16 + k.val, by omega⟩ : Fin 272) (0 : Fin 1))))
    + b (ix1 (0 : Fin 1))

/-- The result array: the logistic function of each row's logit. -/
def result (x : FVec Ideal ⟨2, ![1024, 16]⟩ .f32) (T : FVec Ideal ⟨2, ![16, 256]⟩ .f32)
    (w : FVec Ideal ⟨2, ![272, 1]⟩ .f32) (b : FVec Ideal ⟨1, ![1]⟩ .f32) : FVec Ideal ⟨2, ![1024, 1]⟩ .f32 :=
  fun idx => Ideal.logistic (logit x T w b ⟨(idx 0).val, idx2_lt0 idx⟩)

end Cert.Discrim

end
-- ==== Proof.Payloads.lean ====
/-
  The kernel's arithmetic read at an index.

  The projection kernel's product at (i, k) is Σ_f x[i, f] · T[f, k]: narrowing a format is the identity on the extended
  reals, and a product accumulated into the zero array is the plain sum over the contracted axis. The pairwise kernel's
  accumulator starts at 0; one chunk of 16 rows adds, at (p, k), Σ_j exp(0 - |a[p, k] - c[j, k]|) over the chunk's rows
  j, where |d| is max d (-d) and 0 - y = -y; and its last step is the logistic function of the row's own features
  against the first weights, plus its closeness features against the other weights, plus the bias. Every array
  operation in between (a view under another shape with the same row-major order, a broadcast along a unit axis, a
  sum over one axis) is read at an index coordinate by coordinate.
-/
import proofs.«121339_j56934086476615_2_alg».proof.Proof.Spec
import proofs.«121339_j56934086476615_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Discrim.Pay

open Cert.KernelIdeal Cert.KernelIdeal.Gen Idealize.ShloMosaic Idealize.ShloMosaic.ValueIdx

/-! ## Layout operations at an index -/

section Layout
variable {α : Type}

/-- An [a, b] array viewed as [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a] array viewed as the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [128, 1, 256] array broadcast along its unit axis reads, at (p, j, k), the operand at (p, 0, k). -/
theorem broadcastTo_mid_apply (x : S128x1x256.Idx → α) (h : S128x1x256.Broadcasts S128x16x256)
    (p : Fin 128) (j : Fin 16) (k : Fin 256) :
    broadcastTo S128x16x256 x h (ix3 p j k) = x (ix3 p (0 : Fin 1) k) :=
  broadcastTo_apply x h (ix3 p j k) (ix3 p (0 : Fin 1) k) fun a =>
    match a with | ⟨0, _⟩ => rfl | ⟨1, _⟩ => rfl | ⟨2, _⟩ => rfl

/-- A [1, 16, 256] array broadcast along its unit axis reads, at (p, j, k), the operand at (0, j, k). -/
theorem broadcastTo_lead_apply (x : S1x16x256.Idx → α) (h : S1x16x256.Broadcasts S128x16x256)
    (p : Fin 128) (j : Fin 16) (k : Fin 256) :
    broadcastTo S128x16x256 x h (ix3 p j k) = x (ix3 (0 : Fin 1) j k) :=
  broadcastTo_apply x h (ix3 p j k) (ix3 (0 : Fin 1) j k) fun a =>
    match a with | ⟨0, _⟩ => rfl | ⟨1, _⟩ => rfl | ⟨2, _⟩ => rfl

end Layout

/-! ## Sums over one axis at an index -/

/-- The sum over the middle axis of a [128, 16, 256] array, at (p, k), is Σ_j of the array at (p, j, k). -/
theorem sum_mid_apply (src : FVec Ideal S128x16x256 .f32) (h : S128x16x256.Reduces [1] S128x256) (hφ : FKind.Formats .f32)
    (hacc : (0x00000000#32 : BitVec 32) = FKind.add.neutral .f32 hφ) (p : Fin 128) (k : Fin 256) :
    multiReduction .add [1] S128x256 src 0x00000000#32 h hφ hacc (ix2 p k) = ∑ j : Fin 16, src (ix3 p j k) := by
  refine (Ideal.multiReduction_add_single src 0x00000000#32 h hφ hacc (ix2 p k)).trans ?_
  refine Finset.sum_congr rfl fun j _ => ?_
  exact congrArg src (funext fun a => Fin.ext (by
    match a with | ⟨0, _⟩ => rfl | ⟨1, _⟩ => rfl | ⟨2, _⟩ => rfl))

/-- The sum over the columns of a [128, n] array, at p, is Σ_j of the array at (p, j). -/
theorem sum_cols_apply {n : ℕ} (src : FVec Ideal ⟨2, ![128, n]⟩ .f32) (h : (⟨2, ![128, n]⟩ : Shape).Reduces [1] S128)
    (hφ : FKind.Formats .f32) (hacc : (0x00000000#32 : BitVec 32) = FKind.add.neutral .f32 hφ) (p : Fin 128) :
    multiReduction .add [1] S128 src 0x00000000#32 h hφ hacc (ix1 p) = ∑ j : Fin n, src (ix2 p j) := by
  refine (Ideal.multiReduction_add_single src 0x00000000#32 h hφ hacc (ix1 p)).trans ?_
  refine Finset.sum_congr rfl fun j _ => ?_
  exact congrArg src (funext fun a => Fin.ext (by
    match a with | ⟨0, _⟩ => rfl | ⟨1, _⟩ => rfl))

/-! ## The payloads -/

/-- The left operand's row coordinate at a product index is the result's row. -/
theorem lhs_row (i : S1024x256.Idx) (q : dot_S1024x16_S16x256_S1024x256_1_0_0_1_n_n.contr.Idx) :
    (dot_S1024x16_S16x256_S1024x256_1_0_0_1_n_n.lhsIdx i q 0).val = (i 0).val := by
  unfold DotDims.lhsIdx
  rw [dif_neg (show ¬(0 : Fin S1024x16.rank) ∈ dot_S1024x16_S16x256_S1024x256_1_0_0_1_n_n.lhsBatch by decide),
    dif_pos (show (0 : Fin S1024x16.rank) ∈ dot_S1024x16_S16x256_S1024x256_1_0_0_1_n_n.lhsNonContracting by decide)]
  rfl

/-- The right operand's column coordinate at a product index is the result's column. -/
theorem rhs_col (i : S1024x256.Idx) (q : dot_S1024x16_S16x256_S1024x256_1_0_0_1_n_n.contr.Idx) :
    (dot_S1024x16_S16x256_S1024x256_1_0_0_1_n_n.rhsIdx i q 1).val = (i 1).val := by
  unfold DotDims.rhsIdx
  rw [dif_neg (show ¬(1 : Fin S16x256.rank) ∈ dot_S1024x16_S16x256_S1024x256_1_0_0_1_n_n.rhsBatch by decide),
    dif_pos (show (1 : Fin S16x256.rank) ∈ dot_S1024x16_S16x256_S1024x256_1_0_0_1_n_n.rhsNonContracting by decide)]
  rfl

/-- The projection kernel's product at (i, k): the sum over the 16 features. -/
theorem product_at (x0 : Vec Ideal S1024x16 .f32) (x1 : Vec Ideal S16x256 .f32) (i : Fin 1024) (k : Fin 256) :
    k0_pay1 (F := Ideal) x0 x1 (ix2 i k) = ∑ f : Fin 16, x0 (ix2 i f) * x1 (ix2 f k) := by
  unfold k0_pay1
  refine (Ideal.matmul_constant_zero_apply dot_S1024x16_S16x256_S1024x256_1_0_0_1_n_n none _ _ (ix2 i k)).trans ?_
  rw [← Equiv.sum_comp (contrEquiv1 dot_S1024x16_S16x256_S1024x256_1_0_0_1_n_n 16 rfl rfl).symm]
  refine Finset.sum_congr rfl fun f _ => ?_
  have hk := contrEquiv1_symm_val dot_S1024x16_S16x256_S1024x256_1_0_0_1_n_n 16 rfl rfl f
  have el : dot_S1024x16_S16x256_S1024x256_1_0_0_1_n_n.lhsIdx (ix2 i k)
      ((contrEquiv1 dot_S1024x16_S16x256_S1024x256_1_0_0_1_n_n 16 rfl rfl).symm f) = ix2 i f :=
    funext fun a => Fin.ext (by
      match a with
      | ⟨0, _⟩ => exact lhs_row _ _
      | ⟨1, _⟩ => exact (dot_S1024x16_S16x256_S1024x256_1_0_0_1_n_n.lhsIdx_val_of_single rfl _ _).trans hk)
  have er : dot_S1024x16_S16x256_S1024x256_1_0_0_1_n_n.rhsIdx (ix2 i k)
      ((contrEquiv1 dot_S1024x16_S16x256_S1024x256_1_0_0_1_n_n 16 rfl rfl).symm f) = ix2 f k :=
    funext fun a => Fin.ext (by
      match a with
      | ⟨0, _⟩ => exact (dot_S1024x16_S16x256_S1024x256_1_0_0_1_n_n.rhsIdx_val_of_single rfl _ _).trans hk
      | ⟨1, _⟩ => exact rhs_col _ _)
  show x0 (dot_S1024x16_S16x256_S1024x256_1_0_0_1_n_n.lhsIdx (ix2 i k) _)
    * x1 (dot_S1024x16_S16x256_S1024x256_1_0_0_1_n_n.rhsIdx (ix2 i k) _) = _
  rw [el, er]

/-- The pairwise kernel's accumulator starts at zero. -/
theorem zero_at (p : Fin 128) (k : Fin 256) : k1_pay1 (F := Ideal) (ix2 p k) = 0 := by
  unfold k1_pay1
  show Ideal.ofBits .f32 0x00000000#32 = 0
  exact Ideal.ofBits_zero_f32

/-- One term of a chunk: exp(0 - |a - c|) is the pair's term. -/
theorem pair_term (a c : EReal) :
    Ideal.exp (Ideal.ofBits .f32 0x00000000#32 - max (a - c) (-(a - c))) = Cert.Discrim.pairTerm a c := by
  unfold Cert.Discrim.pairTerm
  rw [Ideal.ofBits_zero_f32, zero_sub]

/-- One chunk of 16 rows adds, at (p, k), the 16 pair terms of the block's row p against the chunk's rows. -/
theorem chunk_at (v4 : Vec Ideal S128x256 .f32) (v33 : Vec Ideal S16x256 .f32) (v41 : Vec Ideal S128x256 .f32)
    (p : Fin 128) (k : Fin 256) :
    k1_pay2 (F := Ideal) v4 v33 v41 (ix2 p k)
      = v41 (ix2 p k) + ∑ j : Fin 16, Cert.Discrim.pairTerm (v4 (ix2 p k)) (v33 (ix2 j k)) := by
  unfold k1_pay2
  refine (congrFun (shapeCast_self _ _) (ix2 p k)).trans ?_
  refine congrArg (v41 (ix2 p k) + ·) ?_
  refine (sum_mid_apply _ _ _ _ p k).trans ?_
  refine Finset.sum_congr rfl fun j _ => ?_
  have eA : broadcastTo S128x16x256 (shapeCast S128x1x256 (shapeCast S128x256 v4 shapeCasts_S128x256_S128x256)
      shapeCasts_S128x256_S128x1x256) broadcasts_S128x1x256_S128x16x256 (ix3 p j k) = v4 (ix2 p k) := by
    refine (broadcastTo_mid_apply _ _ p j k).trans ?_
    refine (shapeCast_ab_a1b_apply _ _ p 0 k).trans ?_
    exact congrFun (shapeCast_self _ _) (ix2 p k)
  have eB : broadcastTo S128x16x256 (shapeCast S1x16x256 (shapeCast S16x256 v33 shapeCasts_S16x256_S16x256)
      shapeCasts_S16x256_S1x16x256) broadcasts_S1x16x256_S128x16x256 (ix3 p j k) = v33 (ix2 j k) := by
    refine (broadcastTo_lead_apply _ _ p j k).trans ?_
    refine (shapeCast_ab_1ab_apply _ _ 0 j k).trans ?_
    exact congrFun (shapeCast_self _ _) (ix2 j k)
  refine Eq.trans ?_ (pair_term (v4 (ix2 p k)) (v33 (ix2 j k)))
  exact congrArg₂ (fun a c : EReal => Ideal.exp (Ideal.ofBits .f32 0x00000000#32 - max (a - c) (-(a - c)))) eA eB

/-- The pairwise kernel's last step at row p: the logistic function of the row's logit. -/
theorem logistic_at (v7 : Vec Ideal S128x16 .f32) (v8 : Vec Ideal S1x16 .f32) (v14 : Vec Ideal S128x256 .f32)
    (v15 : Vec Ideal S1x256 .f32) (v22 : Vec Ideal S1x1 .f32) (p : Fin 128) :
    k1_pay3 (F := Ideal) v7 v8 v14 v15 v22 (ix2 p (0 : Fin 1))
      = Ideal.logistic (((∑ f : Fin 16, v7 (ix2 p f) * v8 (ix2 (0 : Fin 1) f))
          + (∑ k : Fin 256, v14 (ix2 p k) * v15 (ix2 (0 : Fin 1) k))) + v22 (ix2 (0 : Fin 1) (0 : Fin 1))) := by
  unfold k1_pay3
  show Ideal.logistic _ = Ideal.logistic _
  refine congrArg Ideal.logistic ?_
  refine (addf_apply _ _ _).trans ?_
  refine congrArg₂ (· + ·) ((addf_apply _ _ _).trans (congrArg₂ (· + ·) ?_ ?_)) ?_
  · refine (shapeCast_a_a1_apply _ _ p 0).trans ?_
    refine (sum_cols_apply _ _ _ _ p).trans ?_
    refine Finset.sum_congr rfl fun f _ => ?_
    refine (mulf_apply _ _ _).trans ?_
    refine congrArg (v7 (ix2 p f) * ·) ?_
    refine (broadcastTo_1b_ab_apply _ _ p f).trans ?_
    exact congrFun (shapeCast_self _ _) (ix2 (0 : Fin 1) f)
  · refine (shapeCast_a_a1_apply _ _ p 0).trans ?_
    refine (sum_cols_apply _ _ _ _ p).trans ?_
    refine Finset.sum_congr rfl fun k _ => ?_
    refine (mulf_apply _ _ _).trans ?_
    refine congrArg (v14 (ix2 p k) * ·) ?_
    refine (broadcastTo_1b_ab_apply _ _ p k).trans ?_
    exact congrFun (shapeCast_self _ _) (ix2 (0 : Fin 1) k)
  · refine (broadcastTo_1b_ab_apply _ _ p 0).trans ?_
    exact congrFun (shapeCast_self _ _) (ix2 (0 : Fin 1) (0 : Fin 1))

end Cert.Discrim.Pay

end
-- ==== Proof.ChunkSum.lean ====
/-
  A running total over consecutive chunks is the total.

  If a sequence of partial totals starts at 0 and its step c adds the 16 consecutive terms 16 c, …, 16 c + 15, then
  after 64 steps it holds the sum of all 1024 terms: by induction the total after n steps is the sum of the first 16 n
  terms, a sum over an initial segment of the naturals splitting at any point.
-/
import Mathlib.Algebra.BigOperators.Fin

open scoped BigOperators

namespace Cert.Discrim

/-- A running total over 64 chunks of 16 consecutive terms is the total over all 1024 terms. -/
theorem chunk_total {M : Type} [AddCommMonoid M] (g : Fin 1024 → M) (acc : ℕ → M) (h0 : acc 0 = 0)
    (hs : ∀ c : Fin 64, acc (c.val + 1) = acc c.val + ∑ j : Fin 16, g ⟨16 * c.val + j.val, by omega⟩) :
    acc 64 = ∑ j : Fin 1024, g j := by
  -- the terms as a sequence on the naturals, 0 past the end
  let g' : ℕ → M := fun n => if h : n < 1024 then g ⟨n, h⟩ else 0
  have hg' : ∀ (n : ℕ) (h : n < 1024), g' n = g ⟨n, h⟩ := fun n h => dif_pos h
  -- after n steps the total is the sum of the first 16 n terms
  have key : ∀ n : ℕ, n ≤ 64 → acc n = ∑ i ∈ Finset.range (16 * n), g' i := by
    intro n
    induction n with
    | zero =>
      intro _
      rw [Nat.mul_zero, Finset.range_zero, Finset.sum_empty]
      exact h0
    | succ n ih =>
      intro hn
      have hn' : n < 64 := by omega
      have e : 16 * (n + 1) = 16 * n + 16 := by omega
      rw [e, Finset.sum_range_add, ← ih (by omega)]
      refine (hs ⟨n, hn'⟩).trans ?_
      refine congrArg (acc n + ·) ?_
      rw [← Fin.sum_univ_eq_sum_range (fun x => g' (16 * n + x)) 16]
      exact Finset.sum_congr rfl fun j _ => (hg' _ _).symm
  rw [key 64 le_rfl, show 16 * 64 = 1024 from rfl, ← Fin.sum_univ_eq_sum_range g' 1024]
  exact Finset.sum_congr rfl fun j _ => hg' _ _

end Cert.Discrim
-- ==== Proof.ResultArray.lean ====
/-
  The second region's result array as one function of the arrays the region finds. At row i = 128·t + p of the
  result (tile t, row p of the tile) the body stores the logistic of
    (Σ_f x[i, f] · wx[0, f]) + (Σ_k A[p, k] · wo[0, k]) + b[0, 0],
  where A[p, k], the accumulator after the 64 chunk trips, is Σ_j exp(-|P[i, k] − P[j, k]|) over all 1024 rows j of
  the projected array P: the zero block, plus one chunk of 16 rows per trip, and the sum of the 64 chunk sums is the
  sum over all rows (addition on the extended reals is commutative and associative). The tiles' blocks of 128 rows
  fill the result array, so it ends holding that function everywhere.
-/
import proofs.«121339_j56934086476615_2_alg».proof.Proof.PairRegion
import proofs.«121339_j56934086476615_2_alg».proof.Proof.AccRun
import proofs.«121339_j56934086476615_2_alg».proof.Proof.Payloads
import proofs.«121339_j56934086476615_2_alg».proof.Proof.ChunkSum
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Discrim Cert.Discrim.Pay

variable (V : (c : Dev nD) → (b : Ref sig .tc) → Buf (Elt Ideal) ((c : Thread nD τ).loc b))

/-- Row j of chunk k of the whole projected array is its row 16·k + j. -/
theorem chunk_row (x1 : Vec Ideal S1024x256 .f32) (k : Fin k1_t1_loop.trips) (j : Fin 16) (q : Fin 256) :
    View.ld x1 (chunkRect k) (ix2 j q) = x1 (ix2 (⟨16 * k.val + j.val, by have := k.isLt; have h : k1_t1_loop.trips = 64 := by decide
                                                                          omega⟩ : Fin 1024) q) := by
  show x1 ((chunkRect k).emb (ix2 j q)) = _
  refine congrArg x1 (funext fun a => Fin.ext ?_)
  match a with
  | ⟨0, _⟩ => show k1_off1 k 0 + 1 * j.val = 16 * k.val + j.val; rw [k1_off1_eq]; show 16 * k.val + 1 * j.val = _; omega
  | ⟨1, _⟩ => show k1_off1 k 1 + 1 * q.val = q.val; rw [k1_off1_eq]; show 0 + 1 * q.val = _; omega

/-- The accumulator after all the trips: the pair terms summed over all 1024 rows. -/
theorem acc_total (x0 : Vec Ideal S128x256 .f32) (x1 : Vec Ideal S1024x256 .f32) (p : Fin 128) (q : Fin 256) :
    accAt x0 x1 k1_t1_loop.trips (ix2 p q) = ∑ j : Fin 1024, pairTerm (x0 (ix2 p q)) (x1 (ix2 j q)) := by
  have h64 : k1_t1_loop.trips = 64 := by decide
  rw [h64]
  refine chunk_total (fun j => pairTerm (x0 (ix2 p q)) (x1 (ix2 j q))) (fun n => accAt x0 x1 n (ix2 p q)) (zero_at p q) (fun c => ?_)
  show accAt x0 x1 (c.val + 1) (ix2 p q) = _
  have hc : c.val < k1_t1_loop.trips := by rw [h64]; exact c.isLt
  rw [show c.val + 1 = (⟨c.val, hc⟩ : Fin k1_t1_loop.trips).val + 1 from rfl, accAt_succ x0 x1 ⟨c.val, hc⟩]
  refine (chunk_at x0 _ _ p q).trans ?_
  refine congrArg (accAt x0 x1 c.val (ix2 p q) + ·) (Finset.sum_congr rfl fun j _ => ?_)
  rw [chunk_row x1 ⟨c.val, hc⟩ j q]

/-- The index maps of the second region, decided over its eight points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 8 :=
  (by decide +kernel : ∀ t : Fin grid1.N, _)

/-- Row i's logit over the arrays the region finds: the row's features against the first weight row, its closeness
    features (from the projected array) against the second, plus the bias. -/
def rowLogit (x : S1024x16.Idx → EReal) (P : S1024x256.Idx → EReal) (wx : S1x16.Idx → EReal) (wo : S1x256.Idx → EReal)
    (b : S1x1.Idx → EReal) (i : Fin 1024) : EReal :=
  ((∑ f : Fin 16, x (ix2 i f) * wx (ix2 (0 : Fin 1) f))
    + (∑ q : Fin 256, (∑ j : Fin 1024, pairTerm (P (ix2 i q)) (P (ix2 j q))) * wo (ix2 (0 : Fin 1) q)))
    + b (ix2 (0 : Fin 1) (0 : Fin 1))

/-- The function the result array ends holding. -/
def resultFn (x : S1024x16.Idx → EReal) (P : S1024x256.Idx → EReal) (wx : S1x16.Idx → EReal) (wo : S1x256.Idx → EReal)
    (b : S1x1.Idx → EReal) : S1024x1.Idx → EReal :=
  fun idx => Ideal.logistic (rowLogit x P wx wo b ⟨(idx 0).val, idx2_lt0 idx⟩)

/-- … over the arrays as the region finds them. -/
def resultOf (c : Dev nD) : S1024x1.Idx → EReal :=
  resultFn (V c main_arg0) (V c main_v0) (V c main_v2) (V c main_v4) (V c main_v5)

set_option maxHeartbeats 1000000 in
/-- What point `t` writes back is block `t` of that function. -/
theorem flushed6_eq (c : Dev nD) (t : Fin cfg1.N) :
    (dat1 V c).flushed 6 t = ((cfg1.win 6).blk t).view.read (Elt Ideal) (resultOf V c) := by
  show (cfg1.win 6).cut (grid1.coords t) ((dat1 V c).after 6 t) = _
  rw [after1_6]
  unfold pairOut
  rw [canon_result]
  obtain ⟨e00, e01, e10, e11, e20, e21, e30, e31, e40, e41, e50, e51, e60, e61, ht⟩ := idx_facts1 t
  funext y
  obtain ⟨p, z, rfl⟩ : ∃ (p : Fin 128) (z : Fin 1), y = ix2 p z := ⟨y 0, y 1, eq_ix2 y⟩
  obtain rfl : z = 0 := Subsingleton.elim _ _
  have hp : p.val < 128 := p.isLt
  have hx : ∀ (f : Fin 16), iblk1 V c 2 t (ix2 p f) = (V c main_arg0) (ix2 (⟨128 * t.val + p.val, by omega⟩ : Fin 1024) f) := fun f => by
    show (V c main_arg0) (((cfg1.win 2).blk t).view.emb (ix2 p f)) = _
    refine congrArg (V c main_arg0) (funext fun a => Fin.ext ?_)
    match a with
    | ⟨0, _⟩ => show win1_2.index t (0 : Fin 2) * 128 + 1 * p.val = 128 * t.val + p.val; omega
    | ⟨1, _⟩ => show win1_2.index t (1 : Fin 2) * 16 + 1 * f.val = f.val; omega
  have hwx : ∀ (f : Fin 16), iblk1 V c 3 t (ix2 (0 : Fin 1) f) = (V c main_v2) (ix2 (0 : Fin 1) f) := fun f => by
    show (V c main_v2) (((cfg1.win 3).blk t).view.emb (ix2 (0 : Fin 1) f)) = _
    refine congrArg (V c main_v2) (funext fun a => Fin.ext ?_)
    match a with
    | ⟨0, _⟩ => show win1_3.index t (0 : Fin 2) * 1 + 1 * 0 = 0; omega
    | ⟨1, _⟩ => show win1_3.index t (1 : Fin 2) * 16 + 1 * f.val = f.val; omega
  have hP0 : ∀ (q : Fin 256), iblk1 V c 0 t (ix2 p q) = (V c main_v0) (ix2 (⟨128 * t.val + p.val, by omega⟩ : Fin 1024) q) := fun q => by
    show (V c main_v0) (((cfg1.win 0).blk t).view.emb (ix2 p q)) = _
    refine congrArg (V c main_v0) (funext fun a => Fin.ext ?_)
    match a with
    | ⟨0, _⟩ => show win1_0.index t (0 : Fin 2) * 128 + 1 * p.val = 128 * t.val + p.val; omega
    | ⟨1, _⟩ => show win1_0.index t (1 : Fin 2) * 256 + 1 * q.val = q.val; omega
  have hP1 : ∀ (j : Fin 1024) (q : Fin 256), iblk1 V c 1 t (ix2 j q) = (V c main_v0) (ix2 j q) := fun j q => by
    show (V c main_v0) (((cfg1.win 1).blk t).view.emb (ix2 j q)) = _
    refine congrArg (V c main_v0) (funext fun a => Fin.ext ?_)
    match a with
    | ⟨0, _⟩ => show win1_1.index t (0 : Fin 2) * 1024 + 1 * j.val = j.val; omega
    | ⟨1, _⟩ => show win1_1.index t (1 : Fin 2) * 256 + 1 * q.val = q.val; omega
  have hwo : ∀ (q : Fin 256), iblk1 V c 4 t (ix2 (0 : Fin 1) q) = (V c main_v4) (ix2 (0 : Fin 1) q) := fun q => by
    show (V c main_v4) (((cfg1.win 4).blk t).view.emb (ix2 (0 : Fin 1) q)) = _
    refine congrArg (V c main_v4) (funext fun a => Fin.ext ?_)
    match a with
    | ⟨0, _⟩ => show win1_4.index t (0 : Fin 2) * 1 + 1 * 0 = 0; omega
    | ⟨1, _⟩ => show win1_4.index t (1 : Fin 2) * 256 + 1 * q.val = q.val; omega
  have hb : iblk1 V c 5 t (ix2 (0 : Fin 1) (0 : Fin 1)) = (V c main_v5) (ix2 (0 : Fin 1) (0 : Fin 1)) := by
    show (V c main_v5) (((cfg1.win 5).blk t).view.emb (ix2 (0 : Fin 1) (0 : Fin 1))) = _
    refine congrArg (V c main_v5) (funext fun a => Fin.ext ?_)
    match a with
    | ⟨0, _⟩ => show win1_5.index t (0 : Fin 2) * 1 + 1 * 0 = 0; simp only [e50]
    | ⟨1, _⟩ => show win1_5.index t (1 : Fin 2) * 1 + 1 * 0 = 0; simp only [e51]
  show k1_pay3 (iblk1 V c 2 t) (iblk1 V c 3 t) (accAt (iblk1 V c 0 t) (iblk1 V c 1 t) k1_t1_loop.trips) (iblk1 V c 4 t) (iblk1 V c 5 t) (ix2 p (0 : Fin 1))
    = Ideal.logistic (rowLogit (V c main_arg0) (V c main_v0) (V c main_v2) (V c main_v4) (V c main_v5)
        ⟨((((cfg1.win 6).blk t).view.emb (ix2 p (0 : Fin 1))) 0).val, idx2_lt0 _⟩)
  refine (logistic_at _ _ _ _ _ p).trans (congrArg Ideal.logistic ?_)
  rw [show (⟨((((cfg1.win 6).blk t).view.emb (ix2 p (0 : Fin 1))) 0).val, idx2_lt0 _⟩ : Fin 1024) = ⟨128 * t.val + p.val, by omega⟩ from
    Fin.ext (by show win1_6.index t (0 : Fin 2) * 128 + 1 * p.val = 128 * t.val + p.val; omega)]
  unfold rowLogit
  refine congrArg₂ (· + ·) (congrArg₂ (· + ·) (Finset.sum_congr rfl fun f _ => ?_) (Finset.sum_congr rfl fun q _ => ?_)) hb
  · rw [hx f, hwx f]
  · rw [acc_total, hwo q, hP0 q]
    refine congrArg (· * _) (Finset.sum_congr rfl fun j _ => ?_)
    rw [hP1 j q]

/-- An index of the result array is in point `t`'s block iff its row is among the tile's 128. -/
theorem mem_blk6 (t : Fin cfg1.N) (i : S1024x1.Idx) :
    i ∈ ((cfg1.win 6).blk t).view.set ↔ ∀ a : Fin 2, win1_6.index t a * S128x1.size a ≤ (i a).val ∧ (i a).val < win1_6.index t a * S128x1.size a + S128x1.size a := by
  show i ∈ ((View.whole main_v6).slice (win1_6.rect t)).set ↔ _
  rw [View.set_slice_whole, Rect.mem_set_unit]
  exact Iff.rfl

/-- Every tile is some point's. -/
theorem idx_onto6 : ∀ q0 : Fin 8, ∃ t : Fin cfg1.N, win1_6.index t = ![q0.val, 0] :=
  (by decide +kernel : ∀ q0 : Fin 8, ∃ t : Fin grid1.N, win1_6.index t = ![q0.val, 0])

/-- The result array after the run. -/
theorem result_array (c : Dev nD) : (dat1 V c).arrAt 6 cfg1.N = resultOf V c := by
  refine (dat1 V c).arrAt_eq_of_cover 6 (resultOf V c) (fun t _ => flushed6_eq V c t) (fun i => ?_)
  have hi0 : (i 0).val < 1024 := (i 0).isLt
  have hi1 : (i 1).val < 1 := (i 1).isLt
  obtain ⟨t, ht⟩ := idx_onto6 ⟨(i 0).val / 128, by omega⟩
  have q0 : win1_6.index t (0 : Fin 2) = (i 0).val / 128 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 128 ≤ (i 0).val ∧ (i 0).val < win1_6.index t (0 : Fin 2) * 128 + 128; omega
  | ⟨1, _⟩ => show win1_6.index t (1 : Fin 2) * 1 ≤ (i 1).val ∧ (i 1).val < win1_6.index t (1 : Fin 2) * 1 + 1; omega

end Cert.KernelIdeal.Body

end
-- ==== Proof.HostValues.lean ====
/-
  What the host operations between the two kernels leave, read at an index.

  The weight column w (272 × 1) is cut into its first 16 rows and its last 256 rows, and each piece, a column, is
  viewed as a row; the bias b (one element) is viewed as a 1 × 1 array. A slice reads the source at the index shifted by
  its offset, and a view under another shape reads the element at the same row-major position: for a column viewed as a
  row, position i of the column is position i of the row.
-/
import proofs.«121339_j56934086476615_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen Idealize.ShloMosaic Idealize.ShloMosaic.TcCoe Idealize.ShloMosaic.ValueIdx

variable {F : FTy → Type} [FloatOps F]

section Layout
variable {α : Type}

/-- An [a, 1] column viewed as the row [1, a] reads, at (u, i), the operand at (i, u'). -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) (u' : Fin 1) :
    shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.mul_one, Nat.add_zero, Nat.zero_mul, Nat.zero_add])

end Layout

/-- The row of the first 16 weights, at f, is w[f, 0]. -/
theorem weights_x (Wv : Valuation τ sig (Elt F)) (f : Fin 16) :
    (StableHlo.after (hostOps1 (F := F)) Wv main_v2 : S1x16.Idx → Elt F .f32) (ix2 (0 : Fin 1) f)
      = (Wv main_arg2 : S272x1.Idx → Elt F .f32) (ix2 (⟨f.val, by omega⟩ : Fin 272) (0 : Fin 1)) := by
  have e : (StableHlo.after (hostOps1 (F := F)) Wv main_v2 : S1x16.Idx → Elt F .f32)
      = shapeCast S1x16 (extractStridedSlice S16x1 ![0, 0] (Wv main_arg2 : S272x1.Idx → Elt F .f32)
          slices_S272x1_S16x1_0_0) shapeCasts_S16x1_S1x16 := by
    dsimp only [hostOps1]; after_results; rfl
  rw [e]
  refine (shapeCast_a1_1a_apply _ _ 0 f 0).trans ?_
  exact slice2_axis0_apply 0 _ _ f 0 ⟨f.val, by omega⟩ (Nat.zero_add _).symm

/-- The row of the last 256 weights, at k, is w[16 + k, 0]. -/
theorem weights_o (Wv : Valuation τ sig (Elt F)) (k : Fin 256) :
    (StableHlo.after (hostOps1 (F := F)) Wv main_v4 : S1x256.Idx → Elt F .f32) (ix2 (0 : Fin 1) k)
      = (Wv main_arg2 : S272x1.Idx → Elt F .f32) (ix2 (⟨16 + k.val, by omega⟩ : Fin 272) (0 : Fin 1)) := by
  have e : (StableHlo.after (hostOps1 (F := F)) Wv main_v4 : S1x256.Idx → Elt F .f32)
      = shapeCast S1x256 (extractStridedSlice S256x1 ![16, 0] (Wv main_arg2 : S272x1.Idx → Elt F .f32)
          slices_S272x1_S256x1_16_0) shapeCasts_S256x1_S1x256 := by
    dsimp only [hostOps1]; after_results; rfl
  rw [e]
  refine (shapeCast_a1_1a_apply _ _ 0 k 0).trans ?_
  exact slice2_axis0_apply 16 _ _ k 0 ⟨16 + k.val, by omega⟩ rfl

/-- The 1 × 1 bias array holds b[0]. -/
theorem bias (Wv : Valuation τ sig (Elt F)) :
    (StableHlo.after (hostOps1 (F := F)) Wv main_v5 : S1x1.Idx → Elt F .f32) (ix2 (0 : Fin 1) (0 : Fin 1))
      = (Wv main_arg3 : S1.Idx → Elt F .f32) (ix1 (0 : Fin 1)) := by
  have e : (StableHlo.after (hostOps1 (F := F)) Wv main_v5 : S1x1.Idx → Elt F .f32)
      = shapeCast S1x1 (Wv main_arg3 : S1.Idx → Elt F .f32) shapeCasts_S1_S1x1 := by
    dsimp only [hostOps1]; after_results; rfl
  rw [e]
  exact shapeCast_a_1a_apply _ _ 0 0

end Cert.KernelIdeal.Host

end
-- ==== Proof.ProjArray.lean ====
/-
  The first kernel's result array as one function of its two operand arrays.

  The projection kernel runs at one grid point; each of its three windows is its whole array, at block index (0, 0). So
  what the point writes back is the whole result block, which at (i, k) holds Σ_f x[i, f] · T[f, k] of the two operand
  blocks, and those blocks are the operand arrays themselves, read where the array index says. The one block covers
  every index of the result array, so after the run the array is that function everywhere.
-/
import proofs.«121339_j56934086476615_2_alg».proof.Proof.ProjRegion
import proofs.«121339_j56934086476615_2_alg».proof.Proof.Payloads
import Idealize.ShloMosaic.Lib.Pipeline.Value
import Idealize.ShloMosaic.Lib.ValueIdx

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offsets, however spelt. -/
theorem hzP : (![0, 0] : Fin 2 → Nat) = fun _ => 0 := funext fun a => by fin_cases a <;> rfl

/-- The product of two arrays as one array: at (i, k), Σ_f a0[i, f] · a1[f, k]. -/
abbrev projFn (a0 : S1024x16.Idx → EReal) (a1 : S16x256.Idx → EReal) : S1024x256.Idx → EReal := fun idx =>
  ∑ f : Fin 16, a0 (ix2 (⟨(idx 0).val, idx2_lt0 idx⟩ : Fin 1024) f) * a1 (ix2 f (⟨(idx 1).val, idx2_lt1 idx⟩ : Fin 256))

/-- At an index given by its coordinates. -/
theorem projFn_ix2 (a0 : S1024x16.Idx → EReal) (a1 : S16x256.Idx → EReal) (i : Fin 1024) (k : Fin 256) :
    projFn a0 a1 (ix2 i k) = ∑ f : Fin 16, a0 (ix2 i f) * a1 (ix2 f k) := rfl

/-- The result array as a function of the operand arrays as the region finds them. -/
abbrev projG (c : Dev nD) : S1024x256.Idx → EReal := projFn (V c main_arg0) (V c main_arg1)

/-- The product payload at any index of the result block. -/
theorem pay_at (x0 : Vec Ideal S1024x16 .f32) (x1 : Vec Ideal S16x256 .f32) (j : S1024x256.Idx) :
    k0_pay1 (F := Ideal) x0 x1 j
      = ∑ f : Fin 16, x0 (ix2 (⟨(j 0).val, idx2_lt0 j⟩ : Fin 1024) f) * x1 (ix2 f (⟨(j 1).val, idx2_lt1 j⟩ : Fin 256)) :=
  (congrArg (k0_pay1 (F := Ideal) x0 x1) (eq_ix2 j)).trans (Cert.Discrim.Pay.product_at x0 x1 (j 0) (j 1))

/-- The printed index maps, decided over the grid: every window's block index is (0, 0) at the one point. -/
theorem idx_factsP : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the point writes back is its block of `projG` of the operand arrays as the region finds them. -/
theorem flushedP_eq (c : Dev nD) (t : Fin cfg0.N) :
    (dat0 (F := Ideal) V c).flushed 2 t = ((cfg0.win 2).blk t).view.read (Elt Ideal) (projG V c) := by
  show (cfg0.win 2).cut (grid0.coords t) ((dat0 (F := Ideal) V c).after 2 t) = _
  rw [after0_2]
  unfold projOut
  rw [View.canon_unit_zero hzP]
  simp only [View.ld_unit_zero (S := S1024x16) hzP, View.ld_unit_zero (S := S16x256) hzP]
  obtain ⟨e0, e1, e2, e3, e4, e5⟩ := idx_factsP t
  funext j
  refine (pay_at _ _ j).trans ?_
  show _ = projFn (V c main_arg0) (V c main_arg1) (((cfg0.win 2).blk t).view.emb j)
  refine Finset.sum_congr rfl fun f _ => ?_
  have h0 : ((cfg0.win 0).blk t).view.emb (ix2 (⟨(j 0).val, idx2_lt0 j⟩ : Fin 1024) f)
      = ix2 (⟨((((cfg0.win 2).blk t).view.emb j) 0).val, idx2_lt0 _⟩ : Fin 1024) f := by
    funext a; apply Fin.ext
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 16 + 1 * f.val = f.val
      omega
  have h1 : ((cfg0.win 1).blk t).view.emb (ix2 f (⟨(j 1).val, idx2_lt1 j⟩ : Fin 256))
      = ix2 f (⟨((((cfg0.win 2).blk t).view.emb j) 1).val, idx2_lt1 _⟩ : Fin 256) := by
    funext a; apply Fin.ext
    match a with
    | ⟨0, _⟩ =>
      show win0_1.index t (0 : Fin 2) * 16 + 1 * f.val = f.val
      omega
    | ⟨1, _⟩ =>
      show win0_1.index t (1 : Fin 2) * 256 + 1 * (j 1).val = win0_2.index t (1 : Fin 2) * 256 + 1 * (j 1).val
      omega
  exact congrArg₂ (fun a b : EReal => a * b)
    (congrArg (V c main_arg0 : S1024x16.Idx → EReal) h0) (congrArg (V c main_arg1 : S16x256.Idx → EReal) h1)

/-- An index of the array is in the point's block iff each coordinate is in the block's range on its axis. -/
theorem mem_blkP (t : Fin cfg0.N) (i : S1024x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

/-- The one point's block covers every index of the array. -/
theorem coverP (i : S1024x256.Idx) :
    ∃ t : Fin cfg0.N, (cfg0.win 2).flush t = true ∧ i ∈ ((cfg0.win 2).blk t).view.set := by
  refine ⟨t0_0, flush0_2 t0_0, ?_⟩
  rw [mem_blkP]
  obtain ⟨e0, e1, e2, e3, e4, e5⟩ := idx_factsP t0_0
  intro a
  match a with
  | ⟨0, _⟩ =>
    show win0_2.index t0_0 (0 : Fin 2) * 1024 ≤ (i 0).val ∧ (i 0).val < win0_2.index t0_0 (0 : Fin 2) * 1024 + 1024
    have hi : (i 0).val < 1024 := (i 0).isLt
    omega
  | ⟨1, _⟩ =>
    show win0_2.index t0_0 (1 : Fin 2) * 256 ≤ (i 1).val ∧ (i 1).val < win0_2.index t0_0 (1 : Fin 2) * 256 + 256
    have hi : (i 1).val < 256 := (i 1).isLt
    omega

/-- The result array after the run: at (i, k), Σ_f x[i, f] · T[f, k] of the operand arrays as the region finds them. -/
theorem proj_array (c : Dev nD) :
    (dat0 (F := Ideal) V c).arrAt 2 cfg0.N = projFn (V c main_arg0) (V c main_arg1) :=
  (dat0 (F := Ideal) V c).arrAt_eq_of_cover 2 (projG V c) (fun t _ => flushedP_eq V c t) coverP

end Cert.KernelIdeal.Body

end
-- ==== Proof.KernelValue.lean ====
/-
  The kernel program's result array is the specification's function of the four argument arrays. The second region finds
  the projected array at what the first region left (the projection P = x · T), the feature array untouched, and the two
  weight rows and the bias at the host's slices of the weight column and reshape of the bias; with these its result
  function is, row by row, the logistic of the specification's logit.
-/
import proofs.«121339_j56934086476615_2_alg».proof.Proof.Run
import proofs.«121339_j56934086476615_2_alg».proof.Proof.ResultArray
import proofs.«121339_j56934086476615_2_alg».proof.Proof.HostValues
import proofs.«121339_j56934086476615_2_alg».proof.Proof.ProjArray
import proofs.«121339_j56934086476615_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Discrim Cert.KernelIdeal.Host

variable (m : (ℓ : Loc nD τ sig) → Buf (Elt Ideal) ℓ)

theorem resArr_eq (c : Dev nD) :
    resArr (F := Ideal) m c
      = Cert.Discrim.result (m ((c : Thread nD τ).loc main_arg0)) (m ((c : Thread nD τ).loc main_arg1))
          (m ((c : Thread nD τ).loc main_arg2)) (m ((c : Thread nD τ).loc main_arg3)) := by
  unfold resArr
  rw [result_array]
  have hx : U2 m c main_arg0 = m ((c : Thread nD τ).loc main_arg0) :=
    (W2_of m c main_arg0 (by decide)).trans (W1_of m c main_arg0 (by decide))
  have hP : ∀ (a : Fin 1024) (q : Fin 256), (U2 m c main_v0) (ix2 a q)
      = proj (m ((c : Thread nD τ).loc main_arg0)) (m ((c : Thread nD τ).loc main_arg1)) a q := fun a q => by
    have h1 : U2 m c main_v0 = projArr m c := (W2_of m c main_v0 (by decide)).trans (W1_self m c)
    rw [h1]
    unfold projArr
    rw [proj_array]
    exact projFn_ix2 _ _ a q
  have hwx : ∀ f : Fin 16, (U2 m c main_v2) (ix2 (0 : Fin 1) f)
      = (m ((c : Thread nD τ).loc main_arg2)) (ix2 (⟨f.val, by omega⟩ : Fin 272) (0 : Fin 1)) := fun f =>
    (weights_x (W1 m c) f).trans (congrFun (W1_of m c main_arg2 (by decide)) _)
  have hwo : ∀ q : Fin 256, (U2 m c main_v4) (ix2 (0 : Fin 1) q)
      = (m ((c : Thread nD τ).loc main_arg2)) (ix2 (⟨16 + q.val, by omega⟩ : Fin 272) (0 : Fin 1)) := fun q =>
    (weights_o (W1 m c) q).trans (congrFun (W1_of m c main_arg2 (by decide)) _)
  have hb : (U2 m c main_v5) (ix2 (0 : Fin 1) (0 : Fin 1)) = (m ((c : Thread nD τ).loc main_arg3)) (ix1 (0 : Fin 1)) :=
    (bias (W1 m c)).trans (congrFun (W1_of m c main_arg3 (by decide)) _)
  funext idx
  show Ideal.logistic (rowLogit (U2 m c main_arg0) (U2 m c main_v0) (U2 m c main_v2) (U2 m c main_v4) (U2 m c main_v5) ⟨(idx 0).val, idx2_lt0 idx⟩)
    = Ideal.logistic (logit _ _ _ _ ⟨(idx 0).val, idx2_lt0 idx⟩)
  refine congrArg Ideal.logistic ?_
  generalize (⟨(idx 0).val, idx2_lt0 idx⟩ : Fin 1024) = i
  unfold rowLogit logit closeness
  rw [hx, hb]
  refine congrArg₂ (· + ·) (congrArg₂ (· + ·) (Finset.sum_congr rfl fun f _ => ?_) (Finset.sum_congr rfl fun q _ => ?_)) rfl
  · rw [hwx f]
  · rw [hwo q]
    refine congrArg (· * _) (Finset.sum_congr rfl fun j _ => ?_)
    rw [hP i q, hP j q]

end Cert.KernelIdeal.Body

end
-- ==== Proof.RefValue.lean ====
/-
  The reference program read as the stated function.

  Row i of the reference's result is 1 / (1 + exp(-z)) of z = (Σ_p cat[i, p] · w[p, 0]) + b[0], where cat[i, ·] is the
  row's own 16 features followed by its 256 closeness features Σ_j exp(-|P[i, k] - P[j, k]|), P the projection. The sum
  over the 272 joined positions is split into its first 16 and its last 256 terms (addition on the extended reals is a
  commutative monoid, so the split is free), and each part is the corresponding part of the stated logit. The absolute
  value is max d (-d); the constant words are 0 and 1; the reference's divide / add / exp / negate spelling is the
  logistic function by definition.
-/
import proofs.«121339_j56934086476615_2_alg».proof.Proof.Spec
import proofs.«121339_j56934086476615_2_alg».proof.Proof.Gen.ReferenceIdeal.Read
import Idealize.ShloMosaic.Lib.IdealHost

noncomputable section

open scoped BigOperators

namespace Cert.Discrim.Ref

open Idealize.ShloMosaic Idealize.ShloMosaic.ValueIdx
open Cert.ReferenceIdeal Cert.ReferenceIdeal.Gen Cert.ReferenceIdeal.Read

variable (x : (⟨Cert.ReferenceIdeal.S1024x16, .f32⟩ : BufTy).Contents (Elt Ideal))
  (T : (⟨Cert.ReferenceIdeal.S16x256, .f32⟩ : BufTy).Contents (Elt Ideal))
  (w : (⟨Cert.ReferenceIdeal.S272x1, .f32⟩ : BufTy).Contents (Elt Ideal))
  (b : (⟨Cert.ReferenceIdeal.S1, .f32⟩ : BufTy).Contents (Elt Ideal))

/-- The first contraction at (i, k) is the projection P[i, k]. -/
theorem v0_eq (i : Fin 1024) (k : Fin 256) :
    val_main_v0 (F := Ideal) x T (ix2 i k) = Cert.Discrim.proj x T i k := by
  rw [val_main_v0_apply]
  unfold Cert.Discrim.proj
  refine Finset.sum_congr rfl fun f _ => ?_
  have e1 : lidx_main_v0 (ix2 i k) f = ix2 i f :=
    funext fun a => match a with | ⟨0, _⟩ => rfl | ⟨1, _⟩ => rfl
  have e2 : ridx_main_v0 (ix2 i k) f = ix2 f k :=
    funext fun a => match a with | ⟨0, _⟩ => rfl | ⟨1, _⟩ => rfl
  rw [e1, e2]

/-- The pairwise stage at (i, j, k) is exp(-|P[i, k] - P[j, k]|). -/
theorem v8_eq (i j : Fin 1024) (k : Fin 256) :
    val_main_v8 (F := Ideal) x T (ix3 i j k)
      = Cert.Discrim.pairTerm (Cert.Discrim.proj x T i k) (Cert.Discrim.proj x T j k) := by
  rw [val_main_v8_apply, val_main_v7_apply, val_main_v6_apply, val_main_v5_apply, val_main_v3_apply,
    val_main_v4_apply, val_main_v1_apply, val_main_v2_apply]
  have e1 : idx_main_v1 (idx_main_v3 (ix3 i j k)) = ix2 i k :=
    funext fun a => match a with | ⟨0, _⟩ => rfl | ⟨1, _⟩ => rfl
  have e2 : idx_main_v2 (idx_main_v4 (ix3 i j k)) = ix2 j k :=
    funext fun a => match a with | ⟨0, _⟩ => rfl | ⟨1, _⟩ => rfl
  rw [e1, e2, v0_eq, v0_eq]
  rfl

/-- The reduced stage at (i, k) is the closeness feature C[i, k]. -/
theorem v9_eq (i : Fin 1024) (k : Fin 256) :
    val_main_v9 (F := Ideal) x T (ix2 i k) = Cert.Discrim.closeness x T i k := by
  rw [val_main_v9_apply, val_main_cst_apply, Ideal.ofBits_def, Ideal.ofBits_zero_f32, zero_add]
  unfold Cert.Discrim.closeness
  refine Finset.sum_congr rfl fun j _ => ?_
  have e : idx_main_v9 (ix2 i k) j = ix3 i j k :=
    funext fun a => match a with | ⟨0, _⟩ => rfl | ⟨1, _⟩ => rfl | ⟨2, _⟩ => rfl
  rw [e, v8_eq]

/-- The joined array at a position below 16 is the row's own feature. -/
theorem v10_left (i : Fin 1024) (f : Fin 16) :
    val_main_v10 (F := Ideal) x T (ix2 i (⟨f.val, by omega⟩ : Fin 272)) = x (ix2 i f) := by
  unfold val_main_v10
  exact concatenate_pair_apply_left (t := S1024x272) (s₁ := S1024x16) (s₂ := S1024x256) 1 x (val_main_v9 (F := Ideal) x T)
    _ (ix2 i (⟨f.val, by omega⟩ : Fin 272)) rfl (ix2 i f)
    (fun a => match a with | ⟨0, _⟩ => rfl | ⟨1, _⟩ => rfl)

/-- The joined array at a position 16 + k is the reduced stage at k. -/
theorem v10_right (i : Fin 1024) (k : Fin 256) :
    val_main_v10 (F := Ideal) x T (ix2 i (⟨16 + k.val, by omega⟩ : Fin 272))
      = val_main_v9 (F := Ideal) x T (ix2 i k) := by
  unfold val_main_v10
  exact concatenate_pair_apply_right (t := S1024x272) (s₁ := S1024x16) (s₂ := S1024x256) 1 x (val_main_v9 (F := Ideal) x T)
    _ (ix2 i (⟨16 + k.val, by omega⟩ : Fin 272)) rfl rfl (ix2 i k)
    (fun a ha => match a, ha with | ⟨0, _⟩, _ => rfl | ⟨1, _⟩, ha => absurd rfl ha)
    (by show k.val + 16 = 16 + k.val; omega)

/-- The second contraction at row i: the 272 terms split into the first 16 and the last 256. -/
theorem v11_eq (i : Fin 1024) :
    val_main_v11 (F := Ideal) x T w (ix2 i (0 : Fin 1))
      = (∑ f : Fin 16, x (ix2 i f) * w (ix2 (⟨f.val, by omega⟩ : Fin 272) (0 : Fin 1)))
        + (∑ k : Fin 256, Cert.Discrim.closeness x T i k * w (ix2 (⟨16 + k.val, by omega⟩ : Fin 272) (0 : Fin 1))) := by
  rw [val_main_v11_apply]
  refine (Fin.sum_univ_add (a := 16) (b := 256) (fun p : Fin 272 =>
    val_main_v10 (F := Ideal) x T (lidx_main_v11 (ix2 i (0 : Fin 1)) p) * w (ridx_main_v11 (ix2 i (0 : Fin 1)) p))).trans ?_
  congr 1
  · refine Finset.sum_congr rfl fun f _ => ?_
    have e1 : lidx_main_v11 (ix2 i (0 : Fin 1)) (Fin.castAdd 256 f) = ix2 i (⟨f.val, by omega⟩ : Fin 272) :=
      funext fun a => match a with | ⟨0, _⟩ => rfl | ⟨1, _⟩ => rfl
    have e2 : ridx_main_v11 (ix2 i (0 : Fin 1)) (Fin.castAdd 256 f) = ix2 (⟨f.val, by omega⟩ : Fin 272) (0 : Fin 1) :=
      funext fun a => match a with | ⟨0, _⟩ => rfl | ⟨1, _⟩ => rfl
    show val_main_v10 (F := Ideal) x T (lidx_main_v11 (ix2 i (0 : Fin 1)) (Fin.castAdd 256 f))
      * w (ridx_main_v11 (ix2 i (0 : Fin 1)) (Fin.castAdd 256 f)) = _
    rw [e1, e2, v10_left]
  · refine Finset.sum_congr rfl fun k _ => ?_
    have e1 : lidx_main_v11 (ix2 i (0 : Fin 1)) (Fin.natAdd 16 k) = ix2 i (⟨16 + k.val, by omega⟩ : Fin 272) :=
      funext fun a => match a with | ⟨0, _⟩ => rfl | ⟨1, _⟩ => rfl
    have e2 : ridx_main_v11 (ix2 i (0 : Fin 1)) (Fin.natAdd 16 k) = ix2 (⟨16 + k.val, by omega⟩ : Fin 272) (0 : Fin 1) :=
      funext fun a => match a with | ⟨0, _⟩ => rfl | ⟨1, _⟩ => rfl
    show val_main_v10 (F := Ideal) x T (lidx_main_v11 (ix2 i (0 : Fin 1)) (Fin.natAdd 16 k))
      * w (ridx_main_v11 (ix2 i (0 : Fin 1)) (Fin.natAdd 16 k)) = _
    rw [e1, e2, v10_right, v9_eq]

/-- The broadcast bias at any row is b[0]. -/
theorem v13_eq (i : Fin 1024) :
    val_main_v13 (F := Ideal) b (ix2 i (0 : Fin 1)) = b (ix1 (0 : Fin 1)) := by
  rw [val_main_v13_apply, val_main_v12_apply]
  exact congrArg b (funext fun a => match a with | ⟨0, _⟩ => rfl)

/-- The biased contraction at row i is the stated logit. -/
theorem v14_eq (i : Fin 1024) :
    val_main_v14 (F := Ideal) x T w b (ix2 i (0 : Fin 1)) = Cert.Discrim.logit x T w b i := by
  rw [val_main_v14_apply, Ideal.addf_def, v11_eq, v13_eq]
  rfl

/-- The reference's result is the stated function of the argument arrays. -/
theorem reference_result :
    Cert.ReferenceIdeal.Read.val_main_v20 (F := Ideal) x T w b = Cert.Discrim.result x T w b := by
  funext idx
  obtain ⟨i, o, rfl⟩ : ∃ (i : Fin 1024) (o : Fin 1), idx = ix2 i o := ⟨idx 0, idx 1, eq_ix2 idx⟩
  obtain rfl : o = 0 := Subsingleton.elim _ _
  rw [val_main_v20_apply, val_main_v19_apply, val_main_cst_1_apply, val_main_v18_apply, val_main_v17_apply,
    val_main_cst_0_apply, val_main_v16_apply, val_main_v15_apply, v14_eq]
  simp only [Ideal.hostDivf_def, Ideal.ofBits_def, Ideal.ofBits_one_f32, Ideal.addf_def, Ideal.hostUnary_exp_def,
    Ideal.hostNegf_def, Ideal.negf_def]
  rfl

end Cert.Discrim.Ref

end
-- ==== Proof.lean ====
/-
  The proof of the certificate's five claims for the minibatch-discrimination kernel against its reference.
  Both kernel programs (the word-level one and the one read on the extended reals) run as two kernel regions with the
  host's slicing of the weights between them; each region's run comes from its body's run (the second body through
  its 64-trip accumulation loop by the loop's invariant), and no item writes an argument array: the three frames.
  The idealization rewrote nothing, so there is nothing to preserve. On the extended reals the kernel's result array
  is, row by row, the logistic of (features · first 16 weights) + (closeness features · other 256 weights) + bias, the
  closeness features summed chunk by chunk over all rows, and the reference's is the logistic of the one product of
  the concatenated features with the whole weight column plus the bias: the same sums regrouped, equal because
  addition there is commutative and associative (no finiteness is used).
-/
import proofs.«121339_j56934086476615_2_alg».proof.Defs
import proofs.«121339_j56934086476615_2_alg».proof.Proof.Gen.Kernel
import proofs.«121339_j56934086476615_2_alg».proof.Proof.Gen.KernelIdeal
import proofs.«121339_j56934086476615_2_alg».proof.Proof.Gen.ReferenceIdeal
import proofs.«121339_j56934086476615_2_alg».proof.Proof.Gen.ReferenceIdeal.Run
import proofs.«121339_j56934086476615_2_alg».proof.Proof.Gen.ReferenceIdeal.Read
import proofs.«121339_j56934086476615_2_alg».proof.Proof.Gen.Pre_finite_inputs
import proofs.«121339_j56934086476615_2_alg».proof.Proof.BitsRun
import proofs.«121339_j56934086476615_2_alg».proof.Proof.Run
import proofs.«121339_j56934086476615_2_alg».proof.Proof.KernelValue
import proofs.«121339_j56934086476615_2_alg».proof.Proof.RefValue
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ =>
  (θ_run Cert.Kernel.defs _ _).mono (fun _ h c => (h c).2) (Cert.Kernel.Body.run (F := Bits) m ρ)

theorem frame_ki : Cert.frame_KernelIdeal := fun m ρ _ =>
  (θ_run Cert.KernelIdeal.defs _ _).mono (fun _ h c => (h c).2) (Cert.KernelIdeal.Body.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.Discrim.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (Cert.KernelIdeal.Body.resArr_eq m c), (h c).2⟩)
      (Cert.KernelIdeal.Body.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v20_eq _ _ _ _).trans (Cert.Discrim.Ref.reference_result _ _ _ _)

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
